-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x1 .f32) (main_arg8 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg8 main_v33

def fn {F : FTy → Type} [FloatOps F] (main_arg0 : FVec F S50000x64 .f32) (main_arg1 : FVec F S50000x64 .f32) (main_arg2 : IVec S2x800000 32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x64 : Shape := ⟨2, ![50000, 64]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S5000x128 : Shape := ⟨2, ![5000, 128]⟩
abbrev S800000x128 : Shape := ⟨2, ![800000, 128]⟩
abbrev S1x128 : Shape := ⟨2, ![1, 128]⟩
abbrev S5000x1 : Shape := ⟨2, ![5000, 1]⟩
abbrev S1x1 : Shape := ⟨2, ![1, 1]⟩

abbrev nBuf : Space → Nat
  | .hbm => 103
  | .vmem => 42
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S2x800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000, .f32⟩
  | .hbm, ⟨47, _⟩ => ⟨S800000, .f32⟩
  | .hbm, ⟨48, _⟩ => ⟨S800000x1, .f32⟩
  | .hbm, ⟨49, _⟩ => ⟨S50000x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S800000x128, .f32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S800000x128, .f32⟩
  | .hbm, ⟨78, _⟩ => ⟨S800000x128, .f32⟩
  | .hbm, ⟨79, _⟩ => ⟨S800000x128, .f32⟩
  | .hbm, ⟨80, _⟩ => ⟨S_, .f32⟩
  | .hbm, ⟨81, _⟩ => ⟨S50000x128, .f32⟩
  | .hbm, ⟨82, _⟩ => ⟨S800000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x1, .f32⟩
  | .hbm, ⟨87, _⟩ => ⟨S_, .i32⟩
  | .hbm, ⟨88, _⟩ => ⟨S800000, .i32⟩
  | .hbm, ⟨89, _⟩ => ⟨S800000, .i1⟩
  | .hbm, ⟨90, _⟩ => ⟨S_, .i32⟩
  | .hbm, ⟨91, _⟩ => ⟨S800000, .i32⟩
  | .hbm, ⟨92, _⟩ => ⟨S800000, .i32⟩
  | .hbm, ⟨93, _⟩ => ⟨S800000, .i32⟩
  | .hbm, ⟨94, _⟩ => ⟨S800000x1, .i32⟩
  | .hbm, ⟨95, _⟩ => ⟨S800000x1, .f32⟩
  | .hbm, ⟨96, _⟩ => ⟨S800000x1, .f32⟩
  | .hbm, ⟨97, _⟩ => ⟨S_, .f32⟩
  | .hbm, ⟨98, _⟩ => ⟨S50000x1, .f32⟩
  | .hbm, ⟨99, _⟩ => ⟨S800000x1, .i32⟩
  | .hbm, ⟨100, _⟩ => ⟨S50000x1, .f32⟩
  | .hbm, ⟨101, _⟩ => ⟨S1x1, .f32⟩
  | .hbm, ⟨102, _⟩ => ⟨S50000x1, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x1, .f32⟩
  | .local _ .vmem, ⟨31, _⟩ => ⟨S5000x1, .f32⟩
  | .local _ .vmem, ⟨32, _⟩ => ⟨S5000x1, .f32⟩
  | .local _ .vmem, ⟨33, _⟩ => ⟨S5000x1, .f32⟩
  | .local _ .vmem, ⟨34, _⟩ => ⟨S5000x1, .f32⟩
  | .local _ .vmem, ⟨35, _⟩ => ⟨S5000x1, .f32⟩
  | .local _ .vmem, ⟨36, _⟩ => ⟨S5000x1, .f32⟩
  | .local _ .vmem, ⟨37, _⟩ => ⟨S5000x1, .f32⟩
  | .local _ .vmem, ⟨38, _⟩ => ⟨S5000x1, .f32⟩
  | .local _ .vmem, ⟨39, _⟩ => ⟨S1x1, .f32⟩
  | .local _ .vmem, ⟨40, _⟩ => ⟨S5000x1, .f32⟩
  | .local _ .vmem, ⟨41, _⟩ => ⟨S5000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_11 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_12 : Ref sig .tc := ⟨.hbm, 87, rfl⟩
abbrev main_v64 : Ref sig .tc := ⟨.hbm, 88, rfl⟩
abbrev main_v65 : Ref sig .tc := ⟨.hbm, 89, rfl⟩
abbrev main_c_13 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_14 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S800000_S800000x1 : S800000.ShapeCasts S800000x1
  concatenates_S50000x64_S50000x64_S50000x128_d1 : Shape.Concatenates [S50000x64, S50000x64] S50000x128 1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  bcast_S_S50000x1 : S_.BroadcastsInDim S50000x1 (![] : Fin 0 → Fin S50000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x1_S5000x1_1_0_0_1_n_n_wf : DotDims.WF S5000x128 S128x1 S5000x1 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x1.size a ≤ S128x1.size a
  hwx4_1 : ∀ i : grid4.Coords, EltTy.bits .f32 = 32 ∨ (Rect.block (s := S128x1) S128x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x1.size a ≤ S50000x1.size a
  hwx5_0 : ∀ i : grid5.Coords, EltTy.bits .f32 = 32 ∨ (Rect.block (s := S50000x1) S5000x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x1.size a ≤ S50000x1.size a
  hwx5_4 : ∀ i : grid5.Coords, EltTy.bits .f32 = 32 ∨ (Rect.block (s := S50000x1) S5000x1.size (cc5_transform_4 i) (hinb5_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

abbrev win0_0 : Pipeline.Window sig grid0 :=
  Pipeline.Window.ofSpec (Memref.whole main_v32) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v15) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v61) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v62) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v62) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S5000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S5000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v63) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v15) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v75) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v76) S5000x1.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S50000x128 : Shape := ⟨2, ![50000, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S1x1 : Shape := ⟨2, ![1, 1]⟩

abbrev nBuf : Space → Nat
  | .hbm => 200
  | .vmem => 0
  | .smem => 0
  | _ => 0

abbrev hbmTy0_0 (i : Nat) : BufTy := match i % 128 with
  | 0 => ⟨S50000x64, .f32⟩
  | 1 => ⟨S50000x64, .f32⟩
  | 2 => ⟨S2x800000, .i32⟩
  | 3 => ⟨S128x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S1x800000, .i32⟩
  | 10 => ⟨S800000, .i32⟩
  | 11 => ⟨S1x800000, .i32⟩
  | 12 => ⟨S800000, .i32⟩
  | 13 => ⟨S50000x128, .f32⟩
  | 14 => ⟨S50000x128, .f32⟩
  | 15 => ⟨S_, .f32⟩
  | 16 => ⟨S50000, .f32⟩
  | 17 => ⟨S_, .f32⟩
  | 18 => ⟨S800000, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S50000, .f32⟩
  | 28 => ⟨S50000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S800000x1, .f32⟩
  | 58 => ⟨S800000x128, .f32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S50000, .f32⟩
  | 65 => ⟨S50000x1, .f32⟩
  | 66 => ⟨S50000x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x128, .f32⟩
  | 76 => ⟨S_, .f32⟩
  | 77 => ⟨S50000, .f32⟩
  | 78 => ⟨S_, .f32⟩
  | 79 => ⟨S800000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S50000, .f32⟩
  | 89 => ⟨S50000, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000, .f32⟩
  | 108 => ⟨S800000, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x128, .f32⟩
  | 118 => ⟨S800000x1, .f32⟩
  | 119 => ⟨S800000x128, .f32⟩
  | 120 => ⟨S800000x128, .f32⟩
  | 121 => ⟨S_, .f32⟩
  | 122 => ⟨S50000x128, .f32⟩
  | 123 => ⟨S800000x1, .i32⟩
  | 124 => ⟨S50000x128, .f32⟩
  | 125 => ⟨S50000, .f32⟩
  | 126 => ⟨S50000x1, .f32⟩
  | 127 => ⟨S50000x128, .f32⟩
  | _ => ⟨S50000x64, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .f32⟩
  | 8 => ⟨S50000x1, .f32⟩
  | 9 => ⟨S_, .f32⟩
  | 10 => ⟨S50000, .f32⟩
  | 11 => ⟨S_, .f32⟩
  | 12 => ⟨S800000, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x1, .f32⟩
  | 51 => ⟨S800000x1, .f32⟩
  | 52 => ⟨S800000x1, .f32⟩
  | 53 => ⟨S_, .f32⟩
  | 54 => ⟨S50000x1, .f32⟩
  | 55 => ⟨S800000x1, .i32⟩
  | 56 => ⟨S50000x1, .f32⟩
  | 57 => ⟨S50000, .f32⟩
  | 58 => ⟨S50000x1, .f32⟩
  | 59 => ⟨S50000x1, .f32⟩
  | 60 => ⟨S50000x1, .f32⟩
  | 61 => ⟨S1x1, .f32⟩
  | 62 => ⟨S50000x1, .f32⟩
  | 63 => ⟨S50000x1, .f32⟩
  | 64 => ⟨S50000x1, .f32⟩
  | 65 => ⟨S50000x1, .f32⟩
  | 66 => ⟨S_, .f32⟩
  | 67 => ⟨S50000x1, .f32⟩
  | 68 => ⟨S50000x1, .f32⟩
  | 69 => ⟨S_, .f32⟩
  | 70 => ⟨S50000x1, .f32⟩
  | 71 => ⟨S50000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_call0_cst : Ref sig .tc := ⟨.hbm, 72, rfl⟩
abbrev main_call0_v0 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_13 : Ref sig .tc := ⟨.hbm, 90, rfl⟩
abbrev main_v64 : Ref sig .tc := ⟨.hbm, 91, rfl⟩
abbrev main_v65 : Ref sig .tc := ⟨.hbm, 92, rfl⟩
abbrev main_c_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_15 : Ref sig .tc := ⟨.hbm, 99, rfl⟩
abbrev main_v71 : Ref sig .tc := ⟨.hbm, 100, rfl⟩
abbrev main_v72 : Ref sig .tc := ⟨.hbm, 101, rfl⟩
abbrev main_c_16 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_17 : Ref sig .tc := ⟨.hbm, 109, rfl⟩
abbrev main_v79 : Ref sig .tc := ⟨.hbm, 110, rfl⟩
abbrev main_v80 : Ref sig .tc := ⟨.hbm, 111, rfl⟩
abbrev main_c_18 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_19 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_call1_cst : Ref sig .tc := ⟨.hbm, 133, rfl⟩
abbrev main_call1_v0 : Ref sig .tc := ⟨.hbm, 134, rfl⟩
abbrev main_v100 : Ref sig .tc := ⟨.hbm, 135, rfl⟩
abbrev main_v101 : Ref sig .tc := ⟨.hbm, 136, rfl⟩
abbrev main_cst_20 : Ref sig .tc := ⟨.hbm, 137, rfl⟩
abbrev main_v102 : Ref sig .tc := ⟨.hbm, 138, rfl⟩
abbrev main_cst_21 : Ref sig .tc := ⟨.hbm, 139, rfl⟩
abbrev main_v103 : Ref sig .tc := ⟨.hbm, 140, rfl⟩
abbrev main_c_22 : Ref sig .tc := ⟨.hbm, 141, rfl⟩
abbrev main_v104 : Ref sig .tc := ⟨.hbm, 142, rfl⟩
abbrev main_v105 : Ref sig .tc := ⟨.hbm, 143, rfl⟩
abbrev main_c_23 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_c_24 : Ref sig .tc := ⟨.hbm, 151, rfl⟩
abbrev main_v112 : Ref sig .tc := ⟨.hbm, 152, rfl⟩
abbrev main_v113 : Ref sig .tc := ⟨.hbm, 153, rfl⟩
abbrev main_c_25 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_c_26 : Ref sig .tc := ⟨.hbm, 160, rfl⟩
abbrev main_v119 : Ref sig .tc := ⟨.hbm, 161, rfl⟩
abbrev main_v120 : Ref sig .tc := ⟨.hbm, 162, rfl⟩
abbrev main_c_27 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_c_28 : Ref sig .tc := ⟨.hbm, 170, rfl⟩
abbrev main_v127 : Ref sig .tc := ⟨.hbm, 171, rfl⟩
abbrev main_v128 : Ref sig .tc := ⟨.hbm, 172, rfl⟩
abbrev main_c_29 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_cst_30 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_cst_31 : Ref sig .tc := ⟨.hbm, 194, rfl⟩
abbrev main_v148 : Ref sig .tc := ⟨.hbm, 195, rfl⟩
abbrev main_v149 : Ref sig .tc := ⟨.hbm, 196, rfl⟩
abbrev main_cst_32 : Ref sig .tc := ⟨.hbm, 197, rfl⟩
abbrev main_v150 : Ref sig .tc := ⟨.hbm, 198, rfl⟩
abbrev main_v151 : Ref sig .tc := ⟨.hbm, 199, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S50000x64_S50000x64_S50000x128_d1 : Shape.Concatenates [S50000x64, S50000x64] S50000x128 1
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x1_S50000x1_1_0_0_1_n_n_wf : DotDims.WF S50000x128 S128x1 S50000x1 [1] [0] [0] [1] [] []
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

class Facts : Prop extends Facts₀ where

variable [Facts]
-- ==== Proof.RunResult.lean ====
/-
  The idealized kernel's run with its result kept: every weakly fair execution of the whole program (six tiled
  regions among four stretches of host operations) terminates without a fault, the nine argument arrays end as they
  were launched, and the result buffer ends holding the contents the last region's write-backs leave — the last
  entry of the chain of buffer contents at the ten segment boundaries.  The chain's other entries say what each
  region and each host stretch found and left; the value modules read them one boundary at a time.
-/
import proofs.«125621_j68195490725940_1_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the ten segments from the launch memory: the final state is read against the last boundary's
    contents at every unscoped buffer, so the result buffer holds that boundary's entry and each argument walks
    back through the chain to its launch contents. -/
theorem run_result : θ_run defs (onTc (τ := τ) (main (F := F))) ⟨m, fun _ => 0, ρ⟩ (fun r => ∀ c : Dev nD,
      r.2.mem ((c.tc : Thread nD τ).loc main_v76) = W10 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v76 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c)⟩)

end Cert.KernelIdeal.RunResult

end
-- ==== Proof.Spec.lean ====
/-
  A three-layer graph convolution with symmetric degree normalisation and self loops, as whole-array functions.

  For an edge list e (row 0 the sources, row 1 the targets), deg(n) = 1 + #{edges into n}, dinv = deg^(-1/2).
  One layer sends a node-feature matrix x to
      act( A(x·W) + (x·W) ⊙ dinv² + b ),     A(h)(n, ·) = Σ_{edges k with target n} h(src k, ·) · dinv(src k) · dinv(dst k),
  where a source index is wrapped (a negative one has the node count added) before rows are gathered, and the
  scatter of the messages uses the target index as it stands.  Two layers use act = max(·, 0) on 128 channels,
  the last one the logistic function on one channel.

  The pieces that gather and scatter are kept as the host operations themselves, applied to whole arrays; the dense
  pieces (the product with W, and the combine-and-activate step) are given entry by entry.
-/
import proofs.«125621_j68195490725940_1_alg».proof.KernelIdeal
import proofs.«125621_j68195490725940_1_alg».proof.Proof.Gen.KernelIdeal
import Idealize.ShloMosaic.PureOps.Ideal
import Idealize.ShloMosaic.Lib.ValueIdx

noncomputable section

namespace Cert.Gcn

open Cert.KernelIdeal Cert.KernelIdeal.Facts₀ Idealize.ShloMosaic Idealize.ShloMosaic.ValueIdx

/-- A float array of a given shape, over the extended reals. -/
abbrev Arr (s : Shape) := FVec Ideal s .f32
/-- An array of 32-bit index words. -/
abbrev Ids (s : Shape) := IVec s 32

/-! ## The edge list and the degree normalisation -/

/-- Row 0 of the edge list: the source node of every edge. -/
def srcOf (e : Ids S2x800000) : Ids S800000 :=
  shapeCast _ (extractStridedSlice S1x800000 ![0, 0] e slices_S2x800000_S1x800000_0_0) shapeCasts_S1x800000_S800000

/-- Row 1 of the edge list: the target node of every edge. -/
def dstOf (e : Ids S2x800000) : Ids S800000 :=
  shapeCast _ (extractStridedSlice S1x800000 ![1, 0] e slices_S2x800000_S1x800000_1_0) shapeCasts_S1x800000_S800000

/-- An index vector with negative entries wrapped round (the node count added), laid as a column. -/
def wrapCol (v : Ids S800000) : Ids S800000x1 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- An index vector laid as a column, entries as they stand. -/
def rawCol (v : Ids S800000) : Ids S800000x1 :=
  broadcastInDim S800000x1 ![0] bcast_S800000_S800000x1_0 v

/-- dinv = (1 + in-degree)^(-1/2), per node. -/
def dinvOf (e : Ids S2x800000) : Arr S50000 :=
  Host.rsqrt (Host.scatterAdd scatter_S50000_S800000x1_S800000_n_0_0_1
    (broadcastInDim S50000 ![] bcast_S_S50000 (constant (F := Ideal) S_ .f32 0x3F800000#32))
    (wrapCol (dstOf e))
    (broadcastInDim S800000 ![] bcast_S_S800000 (constant (F := Ideal) S_ .f32 0x3F800000#32)))

/-- dinv², the weight of a node's own features. -/
def selfWeight (e : Ids S2x800000) : Arr S50000 := mulf (dinvOf e) (dinvOf e)

/-- dinv(src k) · dinv(dst k), the weight of edge k. -/
def edgeWeight (e : Ids S2x800000) : Arr S800000 :=
  mulf (Host.gather gather_S50000_S800000x1_S800000_n_0_n_n_0_1_1 (dinvOf e) (wrapCol (srcOf e)))
    (Host.gather gather_S50000_S800000x1_S800000_n_0_n_n_0_1_1 (dinvOf e) (wrapCol (dstOf e)))

/-- The self weights as a column [N,1] (a reshape). -/
def selfCol (e : Ids S2x800000) : Arr S50000x1 := shapeCast _ (selfWeight e) shapeCasts_S50000_S50000x1

/-- The edge weights as a column [E,1] (a reshape). -/
def edgeCol (e : Ids S2x800000) : Arr S800000x1 := shapeCast _ (edgeWeight e) shapeCasts_S800000_S800000x1

/-! ## Aggregation over incoming edges -/

/-- A(h) on 128 channels: gather the source rows, weigh them, scatter-add onto the targets from zero. -/
def agg128 (e : Ids S2x800000) (h : Arr S50000x128) : Arr S50000x128 :=
  Host.scatterAdd scatter_S50000x128_S800000x1_S800000x128_1_0_0_1
    (broadcastInDim S50000x128 ![] bcast_S_S50000x128 (constant (F := Ideal) S_ .f32 0x00000000#32))
    (rawCol (dstOf e))
    (mulf (Host.gather gather_S50000x128_S800000x1_S800000x128_1_0_n_n_0_1_1128 h (wrapCol (srcOf e)))
      (broadcastInDim S800000x128 ![0, 1] bcast_S800000x1_S800000x128_0_1 (edgeCol e)))

/-- A(h) on one channel. -/
def agg1 (e : Ids S2x800000) (h : Arr S50000x1) : Arr S50000x1 :=
  Host.scatterAdd scatter_S50000x1_S800000x1_S800000x1_1_0_0_1
    (broadcastInDim S50000x1 ![] bcast_S_S50000x1 (constant (F := Ideal) S_ .f32 0x00000000#32))
    (rawCol (dstOf e))
    (mulf (Host.gather gather_S50000x1_S800000x1_S800000x1_1_0_n_n_0_1_11 h (wrapCol (srcOf e))) (edgeCol e))

/-! ## The dense pieces, entry by entry -/

/-- The two feature halves side by side. -/
def joinCols (a b : Arr S50000x64) : Arr S50000x128 :=
  concatenate S50000x128 1 [⟨S50000x64, a⟩, ⟨S50000x64, b⟩] concatenates_S50000x64_S50000x64_S50000x128_d1

/-- A bias vector as a row [1,128] (a reshape). -/
def biasRow (b : Arr S128) : Arr S1x128 := shapeCast _ b shapeCasts_S128_S1x128

/-- The one-channel bias as a [1,1] array (a reshape). -/
def biasCell (b : Arr S1) : Arr S1x1 := shapeCast _ b shapeCasts_S1_S1x1

/-- (x·W)(p, q) = Σ_k x(p, k) · W(k, q), 128 output channels. -/
def lin128 (x : Arr S50000x128) (w : Arr S128x128) : Arr S50000x128 :=
  fun i => ∑ k : Fin 128, x (ix2 (n0 := 50000) (n1 := 128) (i 0) k) * w (ix2 (n0 := 128) (n1 := 128) k (i 1))

/-- (x·W)(p, 0) = Σ_k x(p, k) · W(k, 0), one output channel. -/
def lin1 (x : Arr S50000x128) (w : Arr S128x1) : Arr S50000x1 :=
  fun i => ∑ k : Fin 128, x (ix2 (n0 := 50000) (n1 := 128) (i 0) k) * w (ix2 (n0 := 128) (n1 := 1) k (i 1))

/-- max(a + h · s(p) + b(q), 0) at (p, q): the self weight is a column, the bias a row. -/
def combRelu (a h : Arr S50000x128) (s : Arr S50000x1) (b : Arr S1x128) : Arr S50000x128 :=
  fun i => max (a i + h i * s (ix2 (n0 := 50000) (n1 := 1) (i 0) 0) + b (ix2 (n0 := 1) (n1 := 128) 0 (i 1)))
    (Ideal.ofBits .f32 0x00000000#32)

/-- logistic(a + h · s + b) at (p, 0). -/
def combSig (a h s : Arr S50000x1) (b : Arr S1x1) : Arr S50000x1 :=
  fun i => Ideal.logistic (a i + h i * s i + b (ix2 (n0 := 1) (n1 := 1) 0 0))

/-! ## The network -/

/-- A hidden layer: x ↦ max(A(xW) + xW ⊙ dinv² + b, 0). -/
def hidden (e : Ids S2x800000) (x : Arr S50000x128) (w : Arr S128x128) (b : Arr S128) : Arr S50000x128 :=
  combRelu (agg128 e (lin128 x w)) (lin128 x w) (selfCol e) (biasRow b)

/-- The output layer: x ↦ logistic(A(xW) + xW ⊙ dinv² + b). -/
def output (e : Ids S2x800000) (x : Arr S50000x128) (w : Arr S128x1) (b : Arr S1) : Arr S50000x1 :=
  combSig (agg1 e (lin1 x w)) (lin1 x w) (selfCol e) (biasCell b)

/-- The link predictor: two hidden layers on the joined features, then the output layer. -/
def net (xi xj : Arr S50000x64) (e : Ids S2x800000) (w1 : Arr S128x128) (b1 : Arr S128) (w2 : Arr S128x128)
    (b2 : Arr S128) (w3 : Arr S128x1) (b3 : Arr S1) : Arr S50000x1 :=
  output e (hidden e (hidden e (joinCols xi xj) w1 b1) w2 b2) w3 b3

end Cert.Gcn

end
-- ==== Proof.LibPlainMatmul.lean ====
/-
  The plain matrix product on the extended reals, read at one entry.

  A matrix unit's product of an `m × k` by a `k × n` array (rows against columns, no batch axis), accumulated into the
  zero array, holds at entry `(a, b)` the sum over the contracted position `c` of `A[a,c] · B[c,b]`. The contraction's
  index set has one axis; it is re-indexed by its one coordinate, and the operands' indices at output entry `(a, b)`
  and contraction position `c` are named by their coordinates, axis by axis: a free axis reads the output's
  coordinate, the contracted axis reads `c`.
-/
import Idealize.ShloMosaic.PureOps.Ideal.Laws
import Idealize.ShloMosaic.Lib.ValueIdx

noncomputable section

open scoped BigOperators

namespace Idealize.ShloMosaic.PlainMatmul

open Idealize.ShloMosaic Idealize.ShloMosaic.ValueIdx

variable {m k n : Nat}

/-- The left operand's row coordinate is the output's row coordinate. -/
theorem lhs_row (i : (⟨2, ![m, n]⟩ : Shape).Idx) (q : (DotDims.plain m k n).contr.Idx) :
    ((DotDims.plain m k n).lhsIdx i q 0).val = (i 0).val := by
  unfold DotDims.lhsIdx
  rw [dif_neg (show ¬(0 : Fin (⟨2, ![m, k]⟩ : Shape).rank) ∈ (DotDims.plain m k n).lhsBatch from List.not_mem_nil),
    dif_pos (show (0 : Fin (⟨2, ![m, k]⟩ : Shape).rank) ∈ (DotDims.plain m k n).lhsNonContracting from List.mem_singleton.mpr rfl)]
  rfl

/-- The left operand's column coordinate is the contraction position. -/
theorem lhs_col (i : (⟨2, ![m, n]⟩ : Shape).Idx) (q : (DotDims.plain m k n).contr.Idx) :
    ((DotDims.plain m k n).lhsIdx i q 1).val = (q ⟨0, (Nat.one_pos : 0 < 1)⟩).val :=
  (DotDims.plain m k n).lhsIdx_val_of_single rfl i q

/-- The right operand's row coordinate is the contraction position. -/
theorem rhs_row (i : (⟨2, ![m, n]⟩ : Shape).Idx) (q : (DotDims.plain m k n).contr.Idx) :
    ((DotDims.plain m k n).rhsIdx i q 0).val = (q ⟨0, (Nat.one_pos : 0 < 1)⟩).val :=
  (DotDims.plain m k n).rhsIdx_val_of_single rfl i q

/-- The right operand's column coordinate is the output's column coordinate. -/
theorem rhs_col (i : (⟨2, ![m, n]⟩ : Shape).Idx) (q : (DotDims.plain m k n).contr.Idx) :
    ((DotDims.plain m k n).rhsIdx i q 1).val = (i 1).val := by
  unfold DotDims.rhsIdx
  rw [dif_neg (show ¬(1 : Fin (⟨2, ![k, n]⟩ : Shape).rank) ∈ (DotDims.plain m k n).rhsBatch from List.not_mem_nil),
    dif_pos (show (1 : Fin (⟨2, ![k, n]⟩ : Shape).rank) ∈ (DotDims.plain m k n).rhsNonContracting from List.mem_singleton.mpr rfl)]
  rfl

/-- **The plain product into the zero accumulator at an entry**: `∑ c, A[a,c] · B[c,b]`, at the ideal values,
    whatever the operands' formats and the precision key. -/
theorem matmul_zero_apply {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) := by
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

end Idealize.ShloMosaic.PlainMatmul

end
-- ==== Proof.Linear0.lean ====
/-
  The first dense product, x·W₁ on 50000 rows, computed in ten row tiles of 5000.

  At a grid point t the body loads rows [5000·t, 5000·t + 5000) of x and all of W₁, multiplies them on the matrix
  unit into a zero accumulator (the operands' change of format is the identity on the extended reals), and stores the
  5000 × 128 tile.  Entry (p, q) of the tile is Σ_k x(5000·t + p, k) · W₁(k, q): entry (5000·t + p, q) of the whole
  product.  The ten tiles are disjoint and fill the rows, so the result array is the product.
-/
import proofs.«125621_j68195490725940_1_alg».proof.Proof.Gen.KernelIdeal.Frame
import proofs.«125621_j68195490725940_1_alg».proof.Proof.Spec
import proofs.«125621_j68195490725940_1_alg».proof.Proof.LibPlainMatmul
import Idealize.ShloMosaic.Lib.Pipeline.Value
import Idealize.ShloMosaic.Lib.ValueIdx
import Idealize.ShloMosaic.Lib.ValueLayout

set_option maxRecDepth 16384

noncomputable section

namespace Cert.KernelIdeal.Linear0

open Cert.KernelIdeal Cert.KernelIdeal.Gen Cert.KernelIdeal.Facts₀ Cert.Gcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The tile's entry (p, q): the row of the left block against the column of the right block. -/
theorem tile_entry (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  rw [shapeCast_self]
  exact Idealize.ShloMosaic.PlainMatmul.matmul_zero_apply none _ _ p q

/-- A tile whose left block is rows [5000·r, 5000·r + 5000) of X and whose right block is W holds, at (p, q), entry
    (5000·r + p, q) of the whole product. -/
theorem tile_of_product (X : Arr S50000x128) (W : Arr S128x128) (x0 : Vec Ideal S5000x128 .f32) (x1 : Vec Ideal S128x128 .f32)
    (r : Nat) (hr : r ≤ 9)
    (h0 : ∀ (p : Fin 5000) (k : Fin 128), x0 (ix2 p k) = X (ix2 (n0 := 50000) (n1 := 128) ⟨r * 5000 + p.val, by omega⟩ k))
    (h1 : ∀ (k q : Fin 128), x1 (ix2 k q) = W (ix2 k q))
    (p : Fin 5000) (q : Fin 128) :
    k0_pay1 (F := Ideal) x0 x1 (ix2 p q) = lin128 X W (ix2 (n0 := 50000) (n1 := 128) ⟨r * 5000 + p.val, by omega⟩ q) := by
  rw [tile_entry]
  exact Finset.sum_congr rfl fun k _ => by rw [h0, h1]

/-- Where the windows' blocks sit at point t: x and the result move down the rows together, W₁ stays. -/
theorem index_facts : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten row tiles is some point's. -/
theorem index_onto : ∀ q0 : Fin 10, ∃ t : Fin cfg0.N, win0_2.index t = ![q0.val, 0] :=
  (by decide +kernel : ∀ q0 : Fin 10, ∃ t : Fin grid0.N, win0_2.index t = ![q0.val, 0])

/-- What point t writes back is block t of the whole product of the arrays the region finds. -/
theorem flushed_eq (c : Dev nD) (t : Fin cfg0.N) :
    (dat0 V c).flushed 2 t = ((cfg0.win 2).blk t).view.read (Elt Ideal) (lin128 (V c main_v32) (V c main_arg3)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := index_facts t
  funext j
  obtain ⟨p, q, rfl⟩ : ∃ (p : Fin 5000) (q : Fin 128), j = ix2 p q := ⟨j 0, j 1, eq_ix2 j⟩
  refine (tile_of_product (V c main_v32) (V c main_arg3) _ _ (win0_2.index t (0 : Fin 2)) e5 ?_ ?_ p q).trans ?_
  · intro p k
    show V c main_v32 (((cfg0.win 0).blk t).view.emb (ix2 p k)) = _
    refine congrArg (V c main_v32) (funext fun a => Fin.ext ?_)
    match a with
    | ⟨0, _⟩ => show win0_0.index t (0 : Fin 2) * 5000 + 1 * p.val = win0_2.index t (0 : Fin 2) * 5000 + p.val; omega
    | ⟨1, _⟩ => show win0_0.index t (1 : Fin 2) * 128 + 1 * k.val = k.val; omega
  · intro k q
    show V c main_arg3 (((cfg0.win 1).blk t).view.emb (ix2 k q)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 128 + 1 * q.val = q.val; omega
  · show lin128 (V c main_v32) (V c main_arg3) _ = lin128 (V c main_v32) (V c main_arg3) (((cfg0.win 2).blk t).view.emb (ix2 p q))
    refine congrArg (lin128 (V c main_v32) (V c main_arg3)) (funext fun a => Fin.ext ?_)
    match a with
    | ⟨0, _⟩ => show win0_2.index t (0 : Fin 2) * 5000 + p.val = win0_2.index t (0 : Fin 2) * 5000 + 1 * p.val; omega
    | ⟨1, _⟩ => show q.val = win0_2.index t (1 : Fin 2) * 128 + 1 * q.val; omega

/-- An index of the result is in point t's tile iff each coordinate is in the tile's range on its axis. -/
theorem mem_tile (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- Row r lies in tile r / 5000. -/
theorem covered (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_tile]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region the result array is the whole product of what the region found in its two operands. -/
theorem product (c : Dev nD) : (dat0 V c).arrAt 2 cfg0.N = lin128 (V c main_v32) (V c main_arg3) :=
  (dat0 V c).arrAt_eq_of_cover 2 _ (fun t _ => flushed_eq V c t) covered

end Cert.KernelIdeal.Linear0

end
-- ==== Proof.LibColumnLayout.lean ====
/-
  Column layouts and row reductions read at an index.

  A reduction along the last axis with `keepdims` leaves a column: the reduced vector `[a]` is cast to `[a, 1]` and
  broadcast back to `[a, b]`, so entry `(p, c)` of the broadcast is entry `p` of the reduced vector. The reductions
  themselves, over the last axis of a rank-2 array and read at row `p`, are the sum (resp. the fold of `max`) over that
  row's entries. Stated over literal-size constructors (`ix1`, `ix2`) so that they fire on indices built by coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnLayout

open Idealize.ShloMosaic Idealize.ShloMosaic.ValueIdx

variable {α : Type}

/-- An `[a]` array cast to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, v, i, j)`, the operand at `(i, j)`, whatever the unit coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_two, Shape.rowMajor_val_four]
    show i.val * b + j.val = ((u.val * 1 + v.val) * a + i.val) * b + j.val
    simp only [hu, hv, Nat.zero_mul, Nat.zero_add])

/-- The two together: a reduced vector kept as a column and broadcast back along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- A float sum over the last axis of an `[a, b]` array from the zero word, read at row `p` at the extended reals: the sum
    of the row's entries. -/
theorem rowSum_apply {a b : ℕ} (src : FVec Ideal ⟨2, ![a, b]⟩ .f32) (h : (⟨2, ![a, b]⟩ : Shape).Reduces [1] ⟨1, ![a]⟩)
    (hφ : FKind.Formats FTy.f32) (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The binary32 word of `−∞` is the least extended real. -/
theorem ofBits_neg_inf_f32 : Ideal.ofBits .f32 0xFF800000#32 = ⊥ := by simp [Ideal.ofBits, Ideal.ieee]

/-- A float maximum over the last axis of an `[a, b]` array from the `−∞` word, read at row `p` at the extended reals: the
    fold of `max` over the row's entries from `⊥`. -/
theorem rowMax_apply {a b : ℕ} (src : FVec Ideal ⟨2, ![a, b]⟩ .f32) (h : (⟨2, ![a, b]⟩ : Shape).Reduces [1] ⟨1, ![a]⟩)
    (hφ : FKind.Formats FTy.f32) (hacc : (0xFF800000#32 : BitVec FTy.f32.bits) = FKind.maximumf.neutral .f32 hφ) (p : Fin a) :
    multiReduction .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  rw [ofBits_neg_inf_f32]
  refine congrArg (Finset.fold max ⊥ · Finset.univ) (funext fun k => congrArg src (funext fun ax => Fin.ext ?_))
  match ax with
  | ⟨0, _⟩ => rfl
  | ⟨1, _⟩ => rfl

/-- A row softmax read at an entry. The printed form: the row maximum (a float `max` reduction from `−∞`) kept as a
    column, subtracted, exponentiated; the row sum of the exponentials (a float `add` reduction from zero) kept as a column;
    the quotient. At `(m, n)`, over the extended reals, it is `exp (s[m, n] − max_n' s[m, n'])` over the sum of the same
    expression along row `m`. -/
theorem rowSoftmax_apply {a b : ℕ} (s : FVec Ideal ⟨2, ![a, b]⟩ .f32)
    (h : (⟨2, ![a, b]⟩ : Shape).Reduces [1] ⟨1, ![a]⟩) (hφ hφ' : FKind.Formats FTy.f32)
    (hmax : (0xFF800000#32 : BitVec FTy.f32.bits) = FKind.maximumf.neutral .f32 hφ)
    (hadd : (0x00000000#32 : BitVec FTy.f32.bits) = FKind.add.neutral .f32 hφ')
    (hc : (⟨1, ![a]⟩ : Shape).ShapeCasts ⟨2, ![a, 1]⟩) (hb : (⟨2, ![a, 1]⟩ : Shape).Broadcasts ⟨2, ![a, b]⟩)
    (m : Fin a) (n : Fin b) :
    divf
        (exp (subf s (broadcastTo ⟨2, ![a, b]⟩
          (shapeCast ⟨2, ![a, 1]⟩ (multiReduction .maximumf [1] ⟨1, ![a]⟩ s 0xFF800000#32 h hφ hmax) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 h hφ hmax) hc) hb)))
              0x00000000#32 h hφ' hadd) hc) hb)
        (ix2 m n)
      = Ideal.div (Ideal.exp (s (ix2 m n) - (Finset.univ : Finset (Fin b)).fold max ⊥ (fun n' => s (ix2 m n'))))
          (∑ n' : Fin b, Ideal.exp (s (ix2 m n') - (Finset.univ : Finset (Fin b)).fold max ⊥ (fun n'' => s (ix2 m n'')))) := by
  have hnum : ∀ n' : Fin b,
      exp (subf s (broadcastTo ⟨2, ![a, b]⟩
          (shapeCast ⟨2, ![a, 1]⟩ (multiReduction .maximumf [1] ⟨1, ![a]⟩ s 0xFF800000#32 h hφ hmax) hc) hb)) (ix2 m n')
        = Ideal.exp (s (ix2 m n') - (Finset.univ : Finset (Fin b)).fold max ⊥ (fun n'' => s (ix2 m n''))) := by
    intro n'
    show Ideal.exp (s (ix2 m n') - broadcastTo ⟨2, ![a, b]⟩
          (shapeCast ⟨2, ![a, 1]⟩ (multiReduction .maximumf [1] ⟨1, ![a]⟩ s 0xFF800000#32 h hφ hmax) hc) hb (ix2 m n')) = _
    rw [keepdims_apply, rowMax_apply]
  rw [divf_apply, hnum n, keepdims_apply, rowSum_apply]
  exact congrArg (Ideal.div _) (Finset.sum_congr rfl fun n' _ => hnum n')

end Idealize.ShloMosaic.ColumnLayout

end
-- ==== Proof.Combine1.lean ====
/-
  The first combine step, max(A + H ⊙ s + b, 0) on 50000 × 128, computed in ten row tiles of 5000.

  At a grid point t the body loads rows [5000·t, 5000·t + 5000) of the aggregate A, of the features H and of the
  self-weight column s, and the whole bias row b; it repeats s along the 128 channels and b down the 5000 rows, adds,
  and takes the maximum with zero.  Entry (p, q) of the tile is entry (5000·t + p, q) of the combined layer; the ten
  tiles are disjoint and fill the rows.
-/
import proofs.«125621_j68195490725940_1_alg».proof.Proof.Gen.KernelIdeal.Frame
import proofs.«125621_j68195490725940_1_alg».proof.Proof.Spec
import proofs.«125621_j68195490725940_1_alg».proof.Proof.LibColumnLayout
import Idealize.ShloMosaic.Lib.Pipeline.Value
import Idealize.ShloMosaic.Lib.ValueIdx
import Idealize.ShloMosaic.Lib.ValueLayout

set_option maxRecDepth 16384

noncomputable section

namespace Cert.KernelIdeal.Combine1

open Cert.KernelIdeal Cert.KernelIdeal.Gen Cert.KernelIdeal.Facts₀ Cert.Gcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The tile's entry (p, q): the aggregate plus the node's own features times its self weight (a column, repeated
    along the channels) plus the bias (a row, repeated down the nodes), cut off below at zero. -/
theorem tile_entry (v0 v2 : Vec Ideal S5000x128 .f32) (v4 : Vec Ideal S5000x1 .f32) (v9 : Vec Ideal S1x128 .f32)
    (p : Fin 5000) (q : Fin 128) :
    k1_pay1 (F := Ideal) v0 v2 v4 v9 (ix2 p q)
      = max (v0 (ix2 p q) + v2 (ix2 p q) * v4 (ix2 p (0 : Fin 1)) + v9 (ix2 (0 : Fin 1) q)) (Ideal.ofBits .f32 0x00000000#32) := by
  unfold k1_pay1
  simp only [shapeCast_self]
  show max (v0 (ix2 p q) + v2 (ix2 p q) * broadcastTo S5000x128 v4 _ (ix2 p q)
      + broadcastTo S5000x128 v9 _ (ix2 p q)) _ = _
  rw [Idealize.ShloMosaic.ColumnLayout.broadcastTo_a1_ab_apply, broadcastTo_1b_ab_apply]
  rfl

/-- A tile whose blocks are rows [5000·r, 5000·r + 5000) of the aggregate, of the features and of the self-weight
    column, with the whole bias row, holds at (p, q) entry (5000·r + p, q) of the combined layer. -/
theorem tile_of_layer (A H : Arr S50000x128) (S : Arr S50000x1) (B : Arr S1x128)
    (v0 v2 : Vec Ideal S5000x128 .f32) (v4 : Vec Ideal S5000x1 .f32) (v9 : Vec Ideal S1x128 .f32)
    (r : Nat) (hr : r ≤ 9)
    (h0 : ∀ (p : Fin 5000) (q : Fin 128), v0 (ix2 p q) = A (ix2 (n0 := 50000) (n1 := 128) ⟨r * 5000 + p.val, by omega⟩ q))
    (h2 : ∀ (p : Fin 5000) (q : Fin 128), v2 (ix2 p q) = H (ix2 (n0 := 50000) (n1 := 128) ⟨r * 5000 + p.val, by omega⟩ q))
    (h4 : ∀ (p : Fin 5000), v4 (ix2 p (0 : Fin 1)) = S (ix2 (n0 := 50000) (n1 := 1) ⟨r * 5000 + p.val, by omega⟩ 0))
    (h9 : ∀ (q : Fin 128), v9 (ix2 (0 : Fin 1) q) = B (ix2 (0 : Fin 1) q))
    (p : Fin 5000) (q : Fin 128) :
    k1_pay1 (F := Ideal) v0 v2 v4 v9 (ix2 p q)
      = combRelu A H S B (ix2 (n0 := 50000) (n1 := 128) ⟨r * 5000 + p.val, by omega⟩ q) := by
  rw [tile_entry, h0, h2, h4, h9]
  rfl

/-- Where the windows' blocks sit at point t: the three node-indexed operands and the result move down the rows
    together, the bias row stays. -/
theorem index_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = win1_4.index t (0 : Fin 2) ∧ win1_2.index t (1 : Fin 2) = 0
    ∧ win1_3.index t (0 : Fin 2) = 0 ∧ win1_3.index t (1 : Fin 2) = 0
    ∧ win1_4.index t (1 : Fin 2) = 0 ∧ win1_4.index t (0 : Fin 2) ≤ 9 :=
  (by decide +kernel : ∀ t : Fin grid1.N, _)

/-- Every one of the ten row tiles is some point's. -/
theorem index_onto : ∀ q0 : Fin 10, ∃ t : Fin cfg1.N, win1_4.index t = ![q0.val, 0] :=
  (by decide +kernel : ∀ q0 : Fin 10, ∃ t : Fin grid1.N, win1_4.index t = ![q0.val, 0])

/-- What point t writes back is block t of the combined layer of the arrays the region finds. -/
theorem flushed_eq (c : Dev nD) (t : Fin cfg1.N) :
    (dat1 V c).flushed 4 t = ((cfg1.win 4).blk t).view.read (Elt Ideal)
      (combRelu (V c main_v45) (V c main_v33) (V c main_v15) (V c main_v46)) := by
  show (cfg1.win 4).cut (grid1.coords t) ((dat1 V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S1x128) zero_offsets]
  obtain ⟨e0, e1, e2, e3, e4, e5, e6, e7, e8, e9⟩ := index_facts t
  funext j
  obtain ⟨p, q, rfl⟩ : ∃ (p : Fin 5000) (q : Fin 128), j = ix2 p q := ⟨j 0, j 1, eq_ix2 j⟩
  refine (tile_of_layer (V c main_v45) (V c main_v33) (V c main_v15) (V c main_v46) _ _ _ _
    (win1_4.index t (0 : Fin 2)) e9 ?_ ?_ ?_ ?_ p q).trans ?_
  · intro p q
    show V c main_v45 (((cfg1.win 0).blk t).view.emb (ix2 p q)) = _
    refine congrArg (V c main_v45) (funext fun a => Fin.ext ?_)
    match a with
    | ⟨0, _⟩ => show win1_0.index t (0 : Fin 2) * 5000 + 1 * p.val = win1_4.index t (0 : Fin 2) * 5000 + p.val; omega
    | ⟨1, _⟩ => show win1_0.index t (1 : Fin 2) * 128 + 1 * q.val = q.val; omega
  · intro p q
    show V c main_v33 (((cfg1.win 1).blk t).view.emb (ix2 p q)) = _
    refine congrArg (V c main_v33) (funext fun a => Fin.ext ?_)
    match a with
    | ⟨0, _⟩ => show win1_1.index t (0 : Fin 2) * 5000 + 1 * p.val = win1_4.index t (0 : Fin 2) * 5000 + p.val; omega
    | ⟨1, _⟩ => show win1_1.index t (1 : Fin 2) * 128 + 1 * q.val = q.val; omega
  · intro p
    show V c main_v15 (((cfg1.win 2).blk t).view.emb (ix2 p (0 : Fin 1))) = _
    refine congrArg (V c main_v15) (funext fun a => Fin.ext ?_)
    match a with
    | ⟨0, _⟩ => show win1_2.index t (0 : Fin 2) * 5000 + 1 * p.val = win1_4.index t (0 : Fin 2) * 5000 + p.val; omega
    | ⟨1, _⟩ => show win1_2.index t (1 : Fin 2) * 1 + 1 * 0 = 0; omega
  · intro q
    show V c main_v46 (((cfg1.win 3).blk t).view.emb (ix2 (0 : Fin 1) q)) = _
    refine congrArg (V c main_v46) (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  · show combRelu (V c main_v45) (V c main_v33) (V c main_v15) (V c main_v46) _
      = combRelu (V c main_v45) (V c main_v33) (V c main_v15) (V c main_v46) (((cfg1.win 4).blk t).view.emb (ix2 p q))
    refine congrArg (combRelu (V c main_v45) (V c main_v33) (V c main_v15) (V c main_v46)) (funext fun a => Fin.ext ?_)
    match a with
    | ⟨0, _⟩ => show win1_4.index t (0 : Fin 2) * 5000 + p.val = win1_4.index t (0 : Fin 2) * 5000 + 1 * p.val; omega
    | ⟨1, _⟩ => show q.val = win1_4.index t (1 : Fin 2) * 128 + 1 * q.val; omega

/-- An index of the result is in point t's tile iff each coordinate is in the tile's range on its axis. -/
theorem mem_tile (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v47).slice (win1_4.rect t)).set ↔ _
  rw [View.set_slice_whole, Rect.mem_set_unit]
  exact Iff.rfl

/-- Row r lies in tile r / 5000. -/
theorem covered (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := index_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_tile]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- After the region the result array is the combined layer of what the region found in its four operands. -/
theorem layer (c : Dev nD) :
    (dat1 V c).arrAt 4 cfg1.N = combRelu (V c main_v45) (V c main_v33) (V c main_v15) (V c main_v46) :=
  (dat1 V c).arrAt_eq_of_cover 4 _ (fun t _ => flushed_eq V c t) covered

end Cert.KernelIdeal.Combine1

end
-- ==== Proof.Linear2.lean ====
/-
  The second dense product, x·W₂ on 50000 rows, computed in ten row tiles of 5000.

  At a grid point t the body loads rows [5000·t, 5000·t + 5000) of the first hidden layer and all of W₂, multiplies
  them on the matrix unit into a zero accumulator (the operands' change of format is the identity on the extended
  reals), and stores the 5000 × 128 tile: entry (p, q) is Σ_k x(5000·t + p, k) · W₂(k, q).  The ten tiles are disjoint
  and fill the rows, so the result array is the product.
-/
import proofs.«125621_j68195490725940_1_alg».proof.Proof.Gen.KernelIdeal.Frame
import proofs.«125621_j68195490725940_1_alg».proof.Proof.Spec
import proofs.«125621_j68195490725940_1_alg».proof.Proof.LibPlainMatmul
import Idealize.ShloMosaic.Lib.Pipeline.Value
import Idealize.ShloMosaic.Lib.ValueIdx
import Idealize.ShloMosaic.Lib.ValueLayout

set_option maxRecDepth 16384

noncomputable section

namespace Cert.KernelIdeal.Linear2

open Cert.KernelIdeal Cert.KernelIdeal.Gen Cert.KernelIdeal.Facts₀ Cert.Gcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The tile's entry (p, q): the row of the left block against the column of the right block. -/
theorem tile_entry (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  unfold k2_pay1
  rw [shapeCast_self]
  exact Idealize.ShloMosaic.PlainMatmul.matmul_zero_apply none _ _ p q

/-- A tile whose left block is rows [5000·r, 5000·r + 5000) of X and whose right block is W holds, at (p, q), entry
    (5000·r + p, q) of the whole product. -/
theorem tile_of_product (X : Arr S50000x128) (W : Arr S128x128) (x0 : Vec Ideal S5000x128 .f32) (x1 : Vec Ideal S128x128 .f32)
    (r : Nat) (hr : r ≤ 9)
    (h0 : ∀ (p : Fin 5000) (k : Fin 128), x0 (ix2 p k) = X (ix2 (n0 := 50000) (n1 := 128) ⟨r * 5000 + p.val, by omega⟩ k))
    (h1 : ∀ (k : Fin 128) (q : Fin 128), x1 (ix2 k q) = W (ix2 k q))
    (p : Fin 5000) (q : Fin 128) :
    k2_pay1 (F := Ideal) x0 x1 (ix2 p q) = lin128 X W (ix2 (n0 := 50000) (n1 := 128) ⟨r * 5000 + p.val, by omega⟩ q) := by
  rw [tile_entry]
  exact Finset.sum_congr rfl fun k _ => by rw [h0, h1]

/-- Where the windows' blocks sit at point t: the left operand and the result move down the rows together, the
    weights stay. -/
theorem index_facts : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every one of the ten row tiles is some point's. -/
theorem index_onto : ∀ q0 : Fin 10, ∃ t : Fin cfg2.N, win2_2.index t = ![q0.val, 0] :=
  (by decide +kernel : ∀ q0 : Fin 10, ∃ t : Fin grid2.N, win2_2.index t = ![q0.val, 0])

/-- What point t writes back is block t of the whole product of the arrays the region finds. -/
theorem flushed_eq (c : Dev nD) (t : Fin cfg2.N) :
    (dat2 V c).flushed 2 t = ((cfg2.win 2).blk t).view.read (Elt Ideal) (lin128 (V c main_v47) (V c main_arg5)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  obtain ⟨e0, e1, e2, e3, e4, e5⟩ := index_facts t
  funext j
  obtain ⟨p, q, rfl⟩ : ∃ (p : Fin 5000) (q : Fin 128), j = ix2 p q := ⟨j 0, j 1, eq_ix2 j⟩
  refine (tile_of_product (V c main_v47) (V c main_arg5) _ _ (win2_2.index t (0 : Fin 2)) e5 ?_ ?_ p q).trans ?_
  · intro p k
    show V c main_v47 (((cfg2.win 0).blk t).view.emb (ix2 p k)) = _
    refine congrArg (V c main_v47) (funext fun a => Fin.ext ?_)
    match a with
    | ⟨0, _⟩ => show win2_0.index t (0 : Fin 2) * 5000 + 1 * p.val = win2_2.index t (0 : Fin 2) * 5000 + p.val; omega
    | ⟨1, _⟩ => show win2_0.index t (1 : Fin 2) * 128 + 1 * k.val = k.val; omega
  · intro k q
    show V c main_arg5 (((cfg2.win 1).blk t).view.emb (ix2 k q)) = _
    refine congrArg (V c main_arg5) (funext fun a => Fin.ext ?_)
    match a with
    | ⟨0, _⟩ => show win2_1.index t (0 : Fin 2) * 128 + 1 * k.val = k.val; omega
    | ⟨1, _⟩ => show win2_1.index t (1 : Fin 2) * 128 + 1 * q.val = q.val; omega
  · show lin128 (V c main_v47) (V c main_arg5) _ = lin128 (V c main_v47) (V c main_arg5) (((cfg2.win 2).blk t).view.emb (ix2 p q))
    refine congrArg (lin128 (V c main_v47) (V c main_arg5)) (funext fun a => Fin.ext ?_)
    match a with
    | ⟨0, _⟩ => show win2_2.index t (0 : Fin 2) * 5000 + p.val = win2_2.index t (0 : Fin 2) * 5000 + 1 * p.val; omega
    | ⟨1, _⟩ => show q.val = win2_2.index t (1 : Fin 2) * 128 + 1 * q.val; omega

/-- An index of the result is in point t's tile iff each coordinate is in the tile's range on its axis. -/
theorem mem_tile (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- Row r lies in tile r / 5000. -/
theorem covered (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := index_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_tile]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region the result array is the whole product of what the region found in its two operands. -/
theorem product (c : Dev nD) : (dat2 V c).arrAt 2 cfg2.N = lin128 (V c main_v47) (V c main_arg5) :=
  (dat2 V c).arrAt_eq_of_cover 2 _ (fun t _ => flushed_eq V c t) covered

end Cert.KernelIdeal.Linear2

end
-- ==== Proof.Combine3.lean ====
/-
  The second combine step, max(A + H ⊙ s + b, 0) on 50000 × 128, computed in ten row tiles of 5000.

  At a grid point t the body loads rows [5000·t, 5000·t + 5000) of the second layer's aggregate A, of its features H
  and of the self-weight column s, and the whole bias row b; it repeats s along the 128 channels and b down the 5000
  rows, adds, and takes the maximum with zero.  Entry (p, q) of the tile is entry (5000·t + p, q) of the combined
  layer; the ten tiles are disjoint and fill the rows.
-/
import proofs.«125621_j68195490725940_1_alg».proof.Proof.Gen.KernelIdeal.Frame
import proofs.«125621_j68195490725940_1_alg».proof.Proof.Spec
import proofs.«125621_j68195490725940_1_alg».proof.Proof.LibColumnLayout
import Idealize.ShloMosaic.Lib.Pipeline.Value
import Idealize.ShloMosaic.Lib.ValueIdx
import Idealize.ShloMosaic.Lib.ValueLayout

set_option maxRecDepth 16384

noncomputable section

namespace Cert.KernelIdeal.Combine3

open Cert.KernelIdeal Cert.KernelIdeal.Gen Cert.KernelIdeal.Facts₀ Cert.Gcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The tile's entry (p, q): the aggregate plus the node's own features times its self weight (a column, repeated
    along the channels) plus the bias (a row, repeated down the nodes), cut off below at zero. -/
theorem tile_entry (v0 v2 : Vec Ideal S5000x128 .f32) (v4 : Vec Ideal S5000x1 .f32) (v9 : Vec Ideal S1x128 .f32)
    (p : Fin 5000) (q : Fin 128) :
    k3_pay1 (F := Ideal) v0 v2 v4 v9 (ix2 p q)
      = max (v0 (ix2 p q) + v2 (ix2 p q) * v4 (ix2 p (0 : Fin 1)) + v9 (ix2 (0 : Fin 1) q)) (Ideal.ofBits .f32 0x00000000#32) := by
  unfold k3_pay1
  simp only [shapeCast_self]
  show max (v0 (ix2 p q) + v2 (ix2 p q) * broadcastTo S5000x128 v4 _ (ix2 p q)
      + broadcastTo S5000x128 v9 _ (ix2 p q)) _ = _
  rw [Idealize.ShloMosaic.ColumnLayout.broadcastTo_a1_ab_apply, broadcastTo_1b_ab_apply]
  rfl

/-- A tile whose blocks are rows [5000·r, 5000·r + 5000) of the aggregate, of the features and of the self-weight
    column, with the whole bias row, holds at (p, q) entry (5000·r + p, q) of the combined layer. -/
theorem tile_of_layer (A H : Arr S50000x128) (S : Arr S50000x1) (B : Arr S1x128)
    (v0 v2 : Vec Ideal S5000x128 .f32) (v4 : Vec Ideal S5000x1 .f32) (v9 : Vec Ideal S1x128 .f32)
    (r : Nat) (hr : r ≤ 9)
    (h0 : ∀ (p : Fin 5000) (q : Fin 128), v0 (ix2 p q) = A (ix2 (n0 := 50000) (n1 := 128) ⟨r * 5000 + p.val, by omega⟩ q))
    (h2 : ∀ (p : Fin 5000) (q : Fin 128), v2 (ix2 p q) = H (ix2 (n0 := 50000) (n1 := 128) ⟨r * 5000 + p.val, by omega⟩ q))
    (h4 : ∀ (p : Fin 5000), v4 (ix2 p (0 : Fin 1)) = S (ix2 (n0 := 50000) (n1 := 1) ⟨r * 5000 + p.val, by omega⟩ 0))
    (h9 : ∀ (q : Fin 128), v9 (ix2 (0 : Fin 1) q) = B (ix2 (0 : Fin 1) q))
    (p : Fin 5000) (q : Fin 128) :
    k3_pay1 (F := Ideal) v0 v2 v4 v9 (ix2 p q)
      = combRelu A H S B (ix2 (n0 := 50000) (n1 := 128) ⟨r * 5000 + p.val, by omega⟩ q) := by
  rw [tile_entry, h0, h2, h4, h9]
  rfl

/-- Where the windows' blocks sit at point t: the three node-indexed operands and the result move down the rows
    together, the bias row stays. -/
theorem index_facts : ∀ t : Fin cfg3.N,
    win3_0.index t (0 : Fin 2) = win3_4.index t (0 : Fin 2) ∧ win3_0.index t (1 : Fin 2) = 0
    ∧ win3_1.index t (0 : Fin 2) = win3_4.index t (0 : Fin 2) ∧ win3_1.index t (1 : Fin 2) = 0
    ∧ win3_2.index t (0 : Fin 2) = win3_4.index t (0 : Fin 2) ∧ win3_2.index t (1 : Fin 2) = 0
    ∧ win3_3.index t (0 : Fin 2) = 0 ∧ win3_3.index t (1 : Fin 2) = 0
    ∧ win3_4.index t (1 : Fin 2) = 0 ∧ win3_4.index t (0 : Fin 2) ≤ 9 :=
  (by decide +kernel : ∀ t : Fin grid3.N, _)

/-- Every one of the ten row tiles is some point's. -/
theorem index_onto : ∀ q0 : Fin 10, ∃ t : Fin cfg3.N, win3_4.index t = ![q0.val, 0] :=
  (by decide +kernel : ∀ q0 : Fin 10, ∃ t : Fin grid3.N, win3_4.index t = ![q0.val, 0])

/-- What point t writes back is block t of the combined layer of the arrays the region finds. -/
theorem flushed_eq (c : Dev nD) (t : Fin cfg3.N) :
    (dat3 V c).flushed 4 t = ((cfg3.win 4).blk t).view.read (Elt Ideal)
      (combRelu (V c main_v60) (V c main_v48) (V c main_v15) (V c main_v61)) := by
  show (cfg3.win 4).cut (grid3.coords t) ((dat3 V c).after 4 t) = _
  rw [after3_4]
  unfold out3_4
  rw [View.canon_unit_zero zero_offsets]
  simp only [View.ld_unit_zero (S := S5000x128) zero_offsets, View.ld_unit_zero (S := S5000x1) zero_offsets,
    View.ld_unit_zero (S := S1x128) zero_offsets]
  obtain ⟨e0, e1, e2, e3, e4, e5, e6, e7, e8, e9⟩ := index_facts t
  funext j
  obtain ⟨p, q, rfl⟩ : ∃ (p : Fin 5000) (q : Fin 128), j = ix2 p q := ⟨j 0, j 1, eq_ix2 j⟩
  refine (tile_of_layer (V c main_v60) (V c main_v48) (V c main_v15) (V c main_v61) _ _ _ _
    (win3_4.index t (0 : Fin 2)) e9 ?_ ?_ ?_ ?_ p q).trans ?_
  · intro p q
    show V c main_v60 (((cfg3.win 0).blk t).view.emb (ix2 p q)) = _
    refine congrArg (V c main_v60) (funext fun a => Fin.ext ?_)
    match a with
    | ⟨0, _⟩ => show win3_0.index t (0 : Fin 2) * 5000 + 1 * p.val = win3_4.index t (0 : Fin 2) * 5000 + p.val; omega
    | ⟨1, _⟩ => show win3_0.index t (1 : Fin 2) * 128 + 1 * q.val = q.val; omega
  · intro p q
    show V c main_v48 (((cfg3.win 1).blk t).view.emb (ix2 p q)) = _
    refine congrArg (V c main_v48) (funext fun a => Fin.ext ?_)
    match a with
    | ⟨0, _⟩ => show win3_1.index t (0 : Fin 2) * 5000 + 1 * p.val = win3_4.index t (0 : Fin 2) * 5000 + p.val; omega
    | ⟨1, _⟩ => show win3_1.index t (1 : Fin 2) * 128 + 1 * q.val = q.val; omega
  · intro p
    show V c main_v15 (((cfg3.win 2).blk t).view.emb (ix2 p (0 : Fin 1))) = _
    refine congrArg (V c main_v15) (funext fun a => Fin.ext ?_)
    match a with
    | ⟨0, _⟩ => show win3_2.index t (0 : Fin 2) * 5000 + 1 * p.val = win3_4.index t (0 : Fin 2) * 5000 + p.val; omega
    | ⟨1, _⟩ => show win3_2.index t (1 : Fin 2) * 1 + 1 * 0 = 0; omega
  · intro q
    show V c main_v61 (((cfg3.win 3).blk t).view.emb (ix2 (0 : Fin 1) q)) = _
    refine congrArg (V c main_v61) (funext fun a => Fin.ext ?_)
    match a with
    | ⟨0, _⟩ => show win3_3.index t (0 : Fin 2) * 1 + 1 * 0 = 0; omega
    | ⟨1, _⟩ => show win3_3.index t (1 : Fin 2) * 128 + 1 * q.val = q.val; omega
  · show combRelu (V c main_v60) (V c main_v48) (V c main_v15) (V c main_v61) _
      = combRelu (V c main_v60) (V c main_v48) (V c main_v15) (V c main_v61) (((cfg3.win 4).blk t).view.emb (ix2 p q))
    refine congrArg (combRelu (V c main_v60) (V c main_v48) (V c main_v15) (V c main_v61)) (funext fun a => Fin.ext ?_)
    match a with
    | ⟨0, _⟩ => show win3_4.index t (0 : Fin 2) * 5000 + p.val = win3_4.index t (0 : Fin 2) * 5000 + 1 * p.val; omega
    | ⟨1, _⟩ => show q.val = win3_4.index t (1 : Fin 2) * 128 + 1 * q.val; omega

/-- An index of the result is in point t's tile iff each coordinate is in the tile's range on its axis. -/
theorem mem_tile (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v62).slice (win3_4.rect t)).set ↔ _
  rw [View.set_slice_whole, Rect.mem_set_unit]
  exact Iff.rfl

/-- Row r lies in tile r / 5000. -/
theorem covered (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ := index_onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_tile]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- After the region the result array is the combined layer of what the region found in its four operands. -/
theorem layer (c : Dev nD) :
    (dat3 V c).arrAt 4 cfg3.N = combRelu (V c main_v60) (V c main_v48) (V c main_v15) (V c main_v61) :=
  (dat3 V c).arrAt_eq_of_cover 4 _ (fun t _ => flushed_eq V c t) covered

end Cert.KernelIdeal.Combine3

end
-- ==== Proof.Linear4.lean ====
/-
  The last dense product, x·W₃ with one output channel, on 50000 rows in ten row tiles of 5000.

  At a grid point t the body loads rows [5000·t, 5000·t + 5000) of the second hidden layer and the 128 × 1 weight
  column, multiplies them on the matrix unit into a zero accumulator, and stores the 5000 × 1 tile: entry (p, 0) is
  Σ_k x(5000·t + p, k) · W₃(k, 0).  The ten tiles are disjoint and fill the rows, so the result column is the product.
-/
import proofs.«125621_j68195490725940_1_alg».proof.Proof.Gen.KernelIdeal.Frame
import proofs.«125621_j68195490725940_1_alg».proof.Proof.Spec
import proofs.«125621_j68195490725940_1_alg».proof.Proof.LibPlainMatmul
import Idealize.ShloMosaic.Lib.Pipeline.Value
import Idealize.ShloMosaic.Lib.ValueIdx
import Idealize.ShloMosaic.Lib.ValueLayout

set_option maxRecDepth 16384

noncomputable section

namespace Cert.KernelIdeal.Linear4

open Cert.KernelIdeal Cert.KernelIdeal.Gen Cert.KernelIdeal.Facts₀ Cert.Gcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The tile's entry (p, q): the row of the left block against the column of the right block. -/
theorem tile_entry (x0 : Vec Ideal S5000x128 .f32) (x1 : Vec Ideal S128x1 .f32) (p : Fin 5000) (q : Fin 1) :
    k4_pay1 (F := Ideal) x0 x1 (ix2 p q) = ∑ k : Fin 128, x0 (ix2 p k) * x1 (ix2 k q) := by
  unfold k4_pay1
  rw [shapeCast_self]
  exact Idealize.ShloMosaic.PlainMatmul.matmul_zero_apply none _ _ p q

/-- A tile whose left block is rows [5000·r, 5000·r + 5000) of X and whose right block is W holds, at (p, q), entry
    (5000·r + p, q) of the whole product. -/
theorem tile_of_product (X : Arr S50000x128) (W : Arr S128x1) (x0 : Vec Ideal S5000x128 .f32) (x1 : Vec Ideal S128x1 .f32)
    (r : Nat) (hr : r ≤ 9)
    (h0 : ∀ (p : Fin 5000) (k : Fin 128), x0 (ix2 p k) = X (ix2 (n0 := 50000) (n1 := 128) ⟨r * 5000 + p.val, by omega⟩ k))
    (h1 : ∀ (k : Fin 128) (q : Fin 1), x1 (ix2 k q) = W (ix2 k q))
    (p : Fin 5000) (q : Fin 1) :
    k4_pay1 (F := Ideal) x0 x1 (ix2 p q) = lin1 X W (ix2 (n0 := 50000) (n1 := 1) ⟨r * 5000 + p.val, by omega⟩ q) := by
  rw [tile_entry]
  exact Finset.sum_congr rfl fun k _ => by rw [h0, h1]

/-- Where the windows' blocks sit at point t: the left operand and the result move down the rows together, the
    weights stay. -/
theorem index_facts : ∀ t : Fin cfg4.N,
    win4_0.index t (0 : Fin 2) = win4_2.index t (0 : Fin 2) ∧ win4_0.index t (1 : Fin 2) = 0
    ∧ win4_1.index t (0 : Fin 2) = 0 ∧ win4_1.index t (1 : Fin 2) = 0
    ∧ win4_2.index t (1 : Fin 2) = 0 ∧ win4_2.index t (0 : Fin 2) ≤ 9 :=
  (by decide +kernel : ∀ t : Fin grid4.N, _)

/-- Every one of the ten row tiles is some point's. -/
theorem index_onto : ∀ q0 : Fin 10, ∃ t : Fin cfg4.N, win4_2.index t = ![q0.val, 0] :=
  (by decide +kernel : ∀ q0 : Fin 10, ∃ t : Fin grid4.N, win4_2.index t = ![q0.val, 0])

/-- What point t writes back is block t of the whole product of the arrays the region finds. -/
theorem flushed_eq (c : Dev nD) (t : Fin cfg4.N) :
    (dat4 V c).flushed 2 t = ((cfg4.win 2).blk t).view.read (Elt Ideal) (lin1 (V c main_v62) (V c main_arg7)) := by
  show (cfg4.win 2).cut (grid4.coords t) ((dat4 V c).after 2 t) = _
  rw [after4_2]
  unfold out4_2
  rw [View.canon_unit_zero zero_offsets]
  simp only [View.ld_unit_zero (S := S5000x128) zero_offsets, View.ld_unit_zero (S := S128x1) zero_offsets]
  obtain ⟨e0, e1, e2, e3, e4, e5⟩ := index_facts t
  funext j
  obtain ⟨p, q, rfl⟩ : ∃ (p : Fin 5000) (q : Fin 1), j = ix2 p q := ⟨j 0, j 1, eq_ix2 j⟩
  refine (tile_of_product (V c main_v62) (V c main_arg7) _ _ (win4_2.index t (0 : Fin 2)) e5 ?_ ?_ p q).trans ?_
  · intro p k
    show V c main_v62 (((cfg4.win 0).blk t).view.emb (ix2 p k)) = _
    refine congrArg (V c main_v62) (funext fun a => Fin.ext ?_)
    match a with
    | ⟨0, _⟩ => show win4_0.index t (0 : Fin 2) * 5000 + 1 * p.val = win4_2.index t (0 : Fin 2) * 5000 + p.val; omega
    | ⟨1, _⟩ => show win4_0.index t (1 : Fin 2) * 128 + 1 * k.val = k.val; omega
  · intro k q
    show V c main_arg7 (((cfg4.win 1).blk t).view.emb (ix2 k q)) = _
    refine congrArg (V c main_arg7) (funext fun a => Fin.ext ?_)
    match a with
    | ⟨0, _⟩ => show win4_1.index t (0 : Fin 2) * 128 + 1 * k.val = k.val; omega
    | ⟨1, _⟩ => show win4_1.index t (1 : Fin 2) * 1 + 1 * q.val = q.val; omega
  · show lin1 (V c main_v62) (V c main_arg7) _ = lin1 (V c main_v62) (V c main_arg7) (((cfg4.win 2).blk t).view.emb (ix2 p q))
    refine congrArg (lin1 (V c main_v62) (V c main_arg7)) (funext fun a => Fin.ext ?_)
    match a with
    | ⟨0, _⟩ => show win4_2.index t (0 : Fin 2) * 5000 + p.val = win4_2.index t (0 : Fin 2) * 5000 + 1 * p.val; omega
    | ⟨1, _⟩ => show q.val = win4_2.index t (1 : Fin 2) * 1 + 1 * q.val; omega

/-- An index of the result is in point t's tile iff each coordinate is in the tile's range on its axis. -/
theorem mem_tile (t : Fin cfg4.N) (i : S50000x1.Idx) :
    i ∈ ((cfg4.win 2).blk t).view.set ↔ ∀ a : Fin 2, win4_2.index t a * S5000x1.size a ≤ (i a).val ∧ (i a).val < win4_2.index t a * S5000x1.size a + S5000x1.size a := by
  show i ∈ ((View.whole main_v63).slice (win4_2.rect t)).set ↔ _
  rw [View.set_slice_whole, Rect.mem_set_unit]
  exact Iff.rfl

/-- Row r lies in tile r / 5000. -/
theorem covered (i : S50000x1.Idx) : ∃ t : Fin cfg4.N, (cfg4.win 2).flush t = true ∧ i ∈ ((cfg4.win 2).blk t).view.set := by
  have hi0 : (i 0).val < 50000 := (i 0).isLt
  have hi1 : (i 1).val < 1 := (i 1).isLt
  obtain ⟨t, ht⟩ := index_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_tile]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 1 ≤ (i 1).val ∧ (i 1).val < win4_2.index t (1 : Fin 2) * 1 + 1; omega

/-- After the region the result array is the whole product of what the region found in its two operands. -/
theorem product (c : Dev nD) : (dat4 V c).arrAt 2 cfg4.N = lin1 (V c main_v62) (V c main_arg7) :=
  (dat4 V c).arrAt_eq_of_cover 2 _ (fun t _ => flushed_eq V c t) covered

end Cert.KernelIdeal.Linear4

end
-- ==== Proof.Combine5.lean ====
/-
  The output step, logistic(A + H ⊙ s + b) on 50000 × 1, computed in ten row tiles of 5000.

  At a grid point t the body loads rows [5000·t, 5000·t + 5000) of the one-channel aggregate A, of the features H and
  of the self-weight column s, and the 1 × 1 bias b, which it repeats down the rows; it adds and applies the logistic
  function, 1 / (1 + e^(−x)) with its limits 0 and 1 at the two infinities.  Entry (p, 0) of the tile is entry
  (5000·t + p, 0) of the output layer; the ten tiles are disjoint and fill the rows.
-/
import proofs.«125621_j68195490725940_1_alg».proof.Proof.Gen.KernelIdeal.Frame
import proofs.«125621_j68195490725940_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Combine5

open Cert.KernelIdeal Cert.KernelIdeal.Gen Cert.KernelIdeal.Facts₀ Cert.Gcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The tile's entry (p, 0): the aggregate plus the node's own feature times its self weight plus the bias, through
    the logistic function. -/
theorem tile_entry (v0 v2 v4 : Vec Ideal S5000x1 .f32) (v8 : Vec Ideal S1x1 .f32) (p : Fin 5000) :
    k5_pay1 (F := Ideal) v0 v2 v4 v8 (ix2 p (0 : Fin 1))
      = Ideal.logistic (v0 (ix2 p (0 : Fin 1)) + v2 (ix2 p (0 : Fin 1)) * v4 (ix2 p (0 : Fin 1)) + v8 (ix2 (0 : Fin 1) (0 : Fin 1))) := by
  unfold k5_pay1
  simp only [shapeCast_self]
  show Ideal.logistic (v0 (ix2 p (0 : Fin 1)) + v2 (ix2 p (0 : Fin 1)) * v4 (ix2 p (0 : Fin 1))
      + broadcastTo S5000x1 v8 _ (ix2 p (0 : Fin 1))) = _
  rw [broadcastTo_1b_ab_apply]

/-- A tile whose blocks are rows [5000·r, 5000·r + 5000) of the aggregate, of the features and of the self-weight
    column, with the bias, holds at (p, 0) entry (5000·r + p, 0) of the output layer. -/
theorem tile_of_layer (A H S : Arr S50000x1) (B : Arr S1x1)
    (v0 v2 v4 : Vec Ideal S5000x1 .f32) (v8 : Vec Ideal S1x1 .f32)
    (r : Nat) (hr : r ≤ 9)
    (h0 : ∀ (p : Fin 5000), v0 (ix2 p (0 : Fin 1)) = A (ix2 (n0 := 50000) (n1 := 1) ⟨r * 5000 + p.val, by omega⟩ 0))
    (h2 : ∀ (p : Fin 5000), v2 (ix2 p (0 : Fin 1)) = H (ix2 (n0 := 50000) (n1 := 1) ⟨r * 5000 + p.val, by omega⟩ 0))
    (h4 : ∀ (p : Fin 5000), v4 (ix2 p (0 : Fin 1)) = S (ix2 (n0 := 50000) (n1 := 1) ⟨r * 5000 + p.val, by omega⟩ 0))
    (h8 : v8 (ix2 (0 : Fin 1) (0 : Fin 1)) = B (ix2 (0 : Fin 1) (0 : Fin 1)))
    (p : Fin 5000) :
    k5_pay1 (F := Ideal) v0 v2 v4 v8 (ix2 p (0 : Fin 1))
      = combSig A H S B (ix2 (n0 := 50000) (n1 := 1) ⟨r * 5000 + p.val, by omega⟩ 0) := by
  rw [tile_entry, h0, h2, h4, h8]
  rfl

/-- Where the windows' blocks sit at point t: the three node-indexed operands and the result move down the rows
    together, the bias stays. -/
theorem index_facts : ∀ t : Fin cfg5.N,
    win5_0.index t (0 : Fin 2) = win5_4.index t (0 : Fin 2) ∧ win5_0.index t (1 : Fin 2) = 0
    ∧ win5_1.index t (0 : Fin 2) = win5_4.index t (0 : Fin 2) ∧ win5_1.index t (1 : Fin 2) = 0
    ∧ win5_2.index t (0 : Fin 2) = win5_4.index t (0 : Fin 2) ∧ win5_2.index t (1 : Fin 2) = 0
    ∧ win5_3.index t (0 : Fin 2) = 0 ∧ win5_3.index t (1 : Fin 2) = 0
    ∧ win5_4.index t (1 : Fin 2) = 0 ∧ win5_4.index t (0 : Fin 2) ≤ 9 :=
  (by decide +kernel : ∀ t : Fin grid5.N, _)

/-- Every one of the ten row tiles is some point's. -/
theorem index_onto : ∀ q0 : Fin 10, ∃ t : Fin cfg5.N, win5_4.index t = ![q0.val, 0] :=
  (by decide +kernel : ∀ q0 : Fin 10, ∃ t : Fin grid5.N, win5_4.index t = ![q0.val, 0])

/-- What point t writes back is block t of the output layer of the arrays the region finds. -/
theorem flushed_eq (c : Dev nD) (t : Fin cfg5.N) :
    (dat5 V c).flushed 4 t = ((cfg5.win 4).blk t).view.read (Elt Ideal)
      (combSig (V c main_v74) (V c main_v63) (V c main_v15) (V c main_v75)) := by
  show (cfg5.win 4).cut (grid5.coords t) ((dat5 V c).after 4 t) = _
  rw [after5_4]
  unfold out5_4
  rw [View.canon_unit_zero zero_offsets]
  simp only [View.ld_unit_zero (S := S5000x1) zero_offsets, View.ld_unit_zero (S := S1x1) zero_offsets]
  obtain ⟨e0, e1, e2, e3, e4, e5, e6, e7, e8, e9⟩ := index_facts t
  funext j
  obtain ⟨p, q, rfl⟩ : ∃ (p : Fin 5000) (q : Fin 1), j = ix2 p q := ⟨j 0, j 1, eq_ix2 j⟩
  obtain rfl : q = 0 := Subsingleton.elim _ _
  refine (tile_of_layer (V c main_v74) (V c main_v63) (V c main_v15) (V c main_v75) _ _ _ _
    (win5_4.index t (0 : Fin 2)) e9 ?_ ?_ ?_ ?_ p).trans ?_
  · intro p
    show V c main_v74 (((cfg5.win 0).blk t).view.emb (ix2 p (0 : Fin 1))) = _
    refine congrArg (V c main_v74) (funext fun a => Fin.ext ?_)
    match a with
    | ⟨0, _⟩ => show win5_0.index t (0 : Fin 2) * 5000 + 1 * p.val = win5_4.index t (0 : Fin 2) * 5000 + p.val; omega
    | ⟨1, _⟩ => show win5_0.index t (1 : Fin 2) * 1 + 1 * 0 = 0; omega
  · intro p
    show V c main_v63 (((cfg5.win 1).blk t).view.emb (ix2 p (0 : Fin 1))) = _
    refine congrArg (V c main_v63) (funext fun a => Fin.ext ?_)
    match a with
    | ⟨0, _⟩ => show win5_1.index t (0 : Fin 2) * 5000 + 1 * p.val = win5_4.index t (0 : Fin 2) * 5000 + p.val; omega
    | ⟨1, _⟩ => show win5_1.index t (1 : Fin 2) * 1 + 1 * 0 = 0; omega
  · intro p
    show V c main_v15 (((cfg5.win 2).blk t).view.emb (ix2 p (0 : Fin 1))) = _
    refine congrArg (V c main_v15) (funext fun a => Fin.ext ?_)
    match a with
    | ⟨0, _⟩ => show win5_2.index t (0 : Fin 2) * 5000 + 1 * p.val = win5_4.index t (0 : Fin 2) * 5000 + p.val; omega
    | ⟨1, _⟩ => show win5_2.index t (1 : Fin 2) * 1 + 1 * 0 = 0; omega
  · show V c main_v75 (((cfg5.win 3).blk t).view.emb (ix2 (0 : Fin 1) (0 : Fin 1))) = _
    refine congrArg (V c main_v75) (funext fun a => Fin.ext ?_)
    match a with
    | ⟨0, _⟩ => show win5_3.index t (0 : Fin 2) * 1 + 1 * 0 = 0; omega
    | ⟨1, _⟩ => show win5_3.index t (1 : Fin 2) * 1 + 1 * 0 = 0; omega
  · show combSig (V c main_v74) (V c main_v63) (V c main_v15) (V c main_v75) _
      = combSig (V c main_v74) (V c main_v63) (V c main_v15) (V c main_v75) (((cfg5.win 4).blk t).view.emb (ix2 p (0 : Fin 1)))
    refine congrArg (combSig (V c main_v74) (V c main_v63) (V c main_v15) (V c main_v75)) (funext fun a => Fin.ext ?_)
    match a with
    | ⟨0, _⟩ => show win5_4.index t (0 : Fin 2) * 5000 + p.val = win5_4.index t (0 : Fin 2) * 5000 + 1 * p.val; omega
    | ⟨1, _⟩ => show 0 = win5_4.index t (1 : Fin 2) * 1 + 1 * 0; omega

/-- An index of the result is in point t's tile iff each coordinate is in the tile's range on its axis. -/
theorem mem_tile (t : Fin cfg5.N) (i : S50000x1.Idx) :
    i ∈ ((cfg5.win 4).blk t).view.set ↔ ∀ a : Fin 2, win5_4.index t a * S5000x1.size a ≤ (i a).val ∧ (i a).val < win5_4.index t a * S5000x1.size a + S5000x1.size a := by
  show i ∈ ((View.whole main_v76).slice (win5_4.rect t)).set ↔ _
  rw [View.set_slice_whole, Rect.mem_set_unit]
  exact Iff.rfl

/-- Row r lies in tile r / 5000. -/
theorem covered (i : S50000x1.Idx) : ∃ t : Fin cfg5.N, (cfg5.win 4).flush t = true ∧ i ∈ ((cfg5.win 4).blk t).view.set := by
  have hi0 : (i 0).val < 50000 := (i 0).isLt
  have hi1 : (i 1).val < 1 := (i 1).isLt
  obtain ⟨t, ht⟩ := index_onto ⟨(i 0).val / 5000, by omega⟩
  have q0 : win5_4.index t (0 : Fin 2) = (i 0).val / 5000 := congrFun ht 0
  have q1 : win5_4.index t (1 : Fin 2) = 0 := congrFun ht 1
  refine ⟨t, flush5_4 t, ?_⟩
  rw [mem_tile]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 1 ≤ (i 1).val ∧ (i 1).val < win5_4.index t (1 : Fin 2) * 1 + 1; omega

/-- After the region the result array is the output layer of what the region found in its four operands. -/
theorem layer (c : Dev nD) :
    (dat5 V c).arrAt 4 cfg5.N = combSig (V c main_v74) (V c main_v63) (V c main_v15) (V c main_v75) :=
  (dat5 V c).arrAt_eq_of_cover 4 _ (fun t _ => flushed_eq V c t) covered

end Cert.KernelIdeal.Combine5

end
-- ==== Proof.Chain.lean ====
/-
  The idealized kernel's result as the network function of its nine arguments.

  The program is ten segments: a host stretch (the edge list split, the degree normalisation, the features joined),
  then per layer a dense product region, a host stretch that aggregates over incoming edges, and a combine region
  (for the second and third layers the product follows the previous combine directly).  The buffer contents at each
  boundary are a fold from the launch memory.  Read one boundary at a time: a host stretch leaves at each buffer it
  writes the operations' term of what it found; a region leaves in its output array the whole-array function its
  tiles make up, and every other buffer as it found it.  The arrays that later segments read — the two index rows,
  the edge-weight column, the self-weight column, the weights and biases — are written once and never again, so each
  is read back at the boundary where it is needed as what the first stretch (or the launch) put there.
-/
import proofs.«125621_j68195490725940_1_alg».proof.Proof.Gen.KernelIdeal.Frame
import proofs.«125621_j68195490725940_1_alg».proof.Proof.Spec
import proofs.«125621_j68195490725940_1_alg».proof.Proof.Linear0
import proofs.«125621_j68195490725940_1_alg».proof.Proof.Combine1
import proofs.«125621_j68195490725940_1_alg».proof.Proof.Linear2
import proofs.«125621_j68195490725940_1_alg».proof.Proof.Combine3
import proofs.«125621_j68195490725940_1_alg».proof.Proof.Linear4
import proofs.«125621_j68195490725940_1_alg».proof.Proof.Combine5
import Idealize.ShloMosaic.Lib.StableHlo.Run

set_option maxRecDepth 16384

noncomputable section

namespace Cert.KernelIdeal.Chain

open Cert.KernelIdeal Cert.KernelIdeal.Gen Cert.KernelIdeal.Facts₀ Cert.Gcn
open Idealize.ShloMosaic Idealize.ShloMosaic.TcCoe Idealize.SL.Sem Idealize.ShloMosaic.ValueIdx
open Idealize.ShloMosaic.StableHlo (after_cons after_nil)

variable (m : (ℓ : Loc nD τ sig) → Buf (Elt Ideal) ℓ) (ρ : Dev nD → PrngReg) (c : Dev nD)

/-- A host stretch writes only its own result buffers: any other buffer is as the stretch found it. -/
local macro "keep_host" : tactic =>
  `(tactic| exact StableHlo.after_of_forall_not_mem _ _ (List.forall_iff_forall_mem.mp (by
      simp only [hostOps0, hostOps1, hostOps3, hostOps5, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Buffers carried unchanged across boundaries -/

/-- Nothing between the first host stretch and boundary 2 writes this edge array. -/
theorem keep_v1_2_1 : W2 m ρ c (Proc.devRef .tc main_v1) = W1 m ρ c (Proc.devRef .tc main_v1) :=
  (W2_of_ne m ρ c main_v1 (by decide))
/-- Nothing between the first host stretch and boundary 5 writes this edge array. -/
theorem keep_v1_5_1 : W5 m ρ c (Proc.devRef .tc main_v1) = W1 m ρ c (Proc.devRef .tc main_v1) :=
  (W5_of_ne m ρ c main_v1 (by decide)).trans
    ((W4_of_ne m ρ c main_v1 (by decide)).trans
    ((show W3 m ρ c (Proc.devRef .tc main_v1) = W2 m ρ c (Proc.devRef .tc main_v1) from by keep_host).trans
    ((W2_of_ne m ρ c main_v1 (by decide)))))
/-- Nothing between the first host stretch and boundary 8 writes this edge array. -/
theorem keep_v1_8_1 : W8 m ρ c (Proc.devRef .tc main_v1) = W1 m ρ c (Proc.devRef .tc main_v1) :=
  (W8_of_ne m ρ c main_v1 (by decide)).trans
    ((W7_of_ne m ρ c main_v1 (by decide)).trans
    ((show W6 m ρ c (Proc.devRef .tc main_v1) = W5 m ρ c (Proc.devRef .tc main_v1) from by keep_host).trans
    ((W5_of_ne m ρ c main_v1 (by decide)).trans
    ((W4_of_ne m ρ c main_v1 (by decide)).trans
    ((show W3 m ρ c (Proc.devRef .tc main_v1) = W2 m ρ c (Proc.devRef .tc main_v1) from by keep_host).trans
    ((W2_of_ne m ρ c main_v1 (by decide))))))))
/-- Nothing between the first host stretch and boundary 2 writes this edge array. -/
theorem keep_v3_2_1 : W2 m ρ c (Proc.devRef .tc main_v3) = W1 m ρ c (Proc.devRef .tc main_v3) :=
  (W2_of_ne m ρ c main_v3 (by decide))
/-- Nothing between the first host stretch and boundary 5 writes this edge array. -/
theorem keep_v3_5_1 : W5 m ρ c (Proc.devRef .tc main_v3) = W1 m ρ c (Proc.devRef .tc main_v3) :=
  (W5_of_ne m ρ c main_v3 (by decide)).trans
    ((W4_of_ne m ρ c main_v3 (by decide)).trans
    ((show W3 m ρ c (Proc.devRef .tc main_v3) = W2 m ρ c (Proc.devRef .tc main_v3) from by keep_host).trans
    ((W2_of_ne m ρ c main_v3 (by decide)))))
/-- Nothing between the first host stretch and boundary 8 writes this edge array. -/
theorem keep_v3_8_1 : W8 m ρ c (Proc.devRef .tc main_v3) = W1 m ρ c (Proc.devRef .tc main_v3) :=
  (W8_of_ne m ρ c main_v3 (by decide)).trans
    ((W7_of_ne m ρ c main_v3 (by decide)).trans
    ((show W6 m ρ c (Proc.devRef .tc main_v3) = W5 m ρ c (Proc.devRef .tc main_v3) from by keep_host).trans
    ((W5_of_ne m ρ c main_v3 (by decide)).trans
    ((W4_of_ne m ρ c main_v3 (by decide)).trans
    ((show W3 m ρ c (Proc.devRef .tc main_v3) = W2 m ρ c (Proc.devRef .tc main_v3) from by keep_host).trans
    ((W2_of_ne m ρ c main_v3 (by decide))))))))
/-- Nothing between the first host stretch and boundary 2 writes this edge array. -/
theorem keep_v31_2_1 : W2 m ρ c (Proc.devRef .tc main_v31) = W1 m ρ c (Proc.devRef .tc main_v31) :=
  (W2_of_ne m ρ c main_v31 (by decide))
/-- Nothing between the first host stretch and boundary 5 writes this edge array. -/
theorem keep_v31_5_1 : W5 m ρ c (Proc.devRef .tc main_v31) = W1 m ρ c (Proc.devRef .tc main_v31) :=
  (W5_of_ne m ρ c main_v31 (by decide)).trans
    ((W4_of_ne m ρ c main_v31 (by decide)).trans
    ((show W3 m ρ c (Proc.devRef .tc main_v31) = W2 m ρ c (Proc.devRef .tc main_v31) from by keep_host).trans
    ((W2_of_ne m ρ c main_v31 (by decide)))))
/-- Nothing between the first host stretch and boundary 8 writes this edge array. -/
theorem keep_v31_8_1 : W8 m ρ c (Proc.devRef .tc main_v31) = W1 m ρ c (Proc.devRef .tc main_v31) :=
  (W8_of_ne m ρ c main_v31 (by decide)).trans
    ((W7_of_ne m ρ c main_v31 (by decide)).trans
    ((show W6 m ρ c (Proc.devRef .tc main_v31) = W5 m ρ c (Proc.devRef .tc main_v31) from by keep_host).trans
    ((W5_of_ne m ρ c main_v31 (by decide)).trans
    ((W4_of_ne m ρ c main_v31 (by decide)).trans
    ((show W3 m ρ c (Proc.devRef .tc main_v31) = W2 m ρ c (Proc.devRef .tc main_v31) from by keep_host).trans
    ((W2_of_ne m ρ c main_v31 (by decide))))))))
/-- Nothing between the first host stretch and boundary 3 writes the self-weight column (the combine regions only read it). -/
theorem keep_v15_3_1 : W3 m ρ c (Proc.devRef .tc main_v15) = W1 m ρ c (Proc.devRef .tc main_v15) :=
  (show W3 m ρ c (Proc.devRef .tc main_v15) = W2 m ρ c (Proc.devRef .tc main_v15) from by keep_host).trans
    ((W2_of_ne m ρ c main_v15 (by decide)))
/-- Nothing between the first host stretch and boundary 6 writes the self-weight column (the combine regions only read it). -/
theorem keep_v15_6_1 : W6 m ρ c (Proc.devRef .tc main_v15) = W1 m ρ c (Proc.devRef .tc main_v15) :=
  (show W6 m ρ c (Proc.devRef .tc main_v15) = W5 m ρ c (Proc.devRef .tc main_v15) from by keep_host).trans
    ((W5_of_ne m ρ c main_v15 (by decide)).trans
    (((W4_arr m ρ c 2).trans (((dat1 (V3 m ρ) c).arrAt_in 2 rfl _).trans (A_eq1 (V3 m ρ) c 2))).trans
    ((show W3 m ρ c (Proc.devRef .tc main_v15) = W2 m ρ c (Proc.devRef .tc main_v15) from by keep_host).trans
    ((W2_of_ne m ρ c main_v15 (by decide))))))
/-- Nothing between the first host stretch and boundary 9 writes the self-weight column (the combine regions only read it). -/
theorem keep_v15_9_1 : W9 m ρ c (Proc.devRef .tc main_v15) = W1 m ρ c (Proc.devRef .tc main_v15) :=
  (show W9 m ρ c (Proc.devRef .tc main_v15) = W8 m ρ c (Proc.devRef .tc main_v15) from by keep_host).trans
    ((W8_of_ne m ρ c main_v15 (by decide)).trans
    (((W7_arr m ρ c 2).trans (((dat3 (V6 m ρ) c).arrAt_in 2 rfl _).trans (A_eq3 (V6 m ρ) c 2))).trans
    ((show W6 m ρ c (Proc.devRef .tc main_v15) = W5 m ρ c (Proc.devRef .tc main_v15) from by keep_host).trans
    ((W5_of_ne m ρ c main_v15 (by decide)).trans
    (((W4_arr m ρ c 2).trans (((dat1 (V3 m ρ) c).arrAt_in 2 rfl _).trans (A_eq1 (V3 m ρ) c 2))).trans
    ((show W3 m ρ c (Proc.devRef .tc main_v15) = W2 m ρ c (Proc.devRef .tc main_v15) from by keep_host).trans
    ((W2_of_ne m ρ c main_v15 (by decide)))))))))
/-- The second host stretch leaves the first product in place. -/
theorem keep_v33_3_2 : W3 m ρ c (Proc.devRef .tc main_v33) = W2 m ρ c (Proc.devRef .tc main_v33) :=
  (show W3 m ρ c (Proc.devRef .tc main_v33) = W2 m ρ c (Proc.devRef .tc main_v33) from by keep_host)
/-- The third host stretch leaves the second product in place. -/
theorem keep_v48_6_5 : W6 m ρ c (Proc.devRef .tc main_v48) = W5 m ρ c (Proc.devRef .tc main_v48) :=
  (show W6 m ρ c (Proc.devRef .tc main_v48) = W5 m ρ c (Proc.devRef .tc main_v48) from by keep_host)
/-- The fourth host stretch leaves the third product in place. -/
theorem keep_v63_9_8 : W9 m ρ c (Proc.devRef .tc main_v63) = W8 m ρ c (Proc.devRef .tc main_v63) :=
  (show W9 m ρ c (Proc.devRef .tc main_v63) = W8 m ρ c (Proc.devRef .tc main_v63) from by keep_host)
/-- No stretch or region before boundary 1 writes this argument. -/
theorem keep_arg3_1_0 : W1 m ρ c (Proc.devRef .tc main_arg3) = W0 m ρ c (Proc.devRef .tc main_arg3) :=
  (show W1 m ρ c (Proc.devRef .tc main_arg3) = W0 m ρ c (Proc.devRef .tc main_arg3) from by keep_host)
/-- No stretch or region before boundary 2 writes this argument. -/
theorem keep_arg4_2_0 : W2 m ρ c (Proc.devRef .tc main_arg4) = W0 m ρ c (Proc.devRef .tc main_arg4) :=
  (W2_of_ne m ρ c main_arg4 (by decide)).trans
    ((show W1 m ρ c (Proc.devRef .tc main_arg4) = W0 m ρ c (Proc.devRef .tc main_arg4) from by keep_host))
/-- No stretch or region before boundary 4 writes this argument. -/
theorem keep_arg5_4_0 : W4 m ρ c (Proc.devRef .tc main_arg5) = W0 m ρ c (Proc.devRef .tc main_arg5) :=
  (W4_of_ne m ρ c main_arg5 (by decide)).trans
    ((show W3 m ρ c (Proc.devRef .tc main_arg5) = W2 m ρ c (Proc.devRef .tc main_arg5) from by keep_host).trans
    ((W2_of_ne m ρ c main_arg5 (by decide)).trans
    ((show W1 m ρ c (Proc.devRef .tc main_arg5) = W0 m ρ c (Proc.devRef .tc main_arg5) from by keep_host))))
/-- No stretch or region before boundary 5 writes this argument. -/
theorem keep_arg6_5_0 : W5 m ρ c (Proc.devRef .tc main_arg6) = W0 m ρ c (Proc.devRef .tc main_arg6) :=
  (W5_of_ne m ρ c main_arg6 (by decide)).trans
    ((W4_of_ne m ρ c main_arg6 (by decide)).trans
    ((show W3 m ρ c (Proc.devRef .tc main_arg6) = W2 m ρ c (Proc.devRef .tc main_arg6) from by keep_host).trans
    ((W2_of_ne m ρ c main_arg6 (by decide)).trans
    ((show W1 m ρ c (Proc.devRef .tc main_arg6) = W0 m ρ c (Proc.devRef .tc main_arg6) from by keep_host)))))
/-- No stretch or region before boundary 7 writes this argument. -/
theorem keep_arg7_7_0 : W7 m ρ c (Proc.devRef .tc main_arg7) = W0 m ρ c (Proc.devRef .tc main_arg7) :=
  (W7_of_ne m ρ c main_arg7 (by decide)).trans
    ((show W6 m ρ c (Proc.devRef .tc main_arg7) = W5 m ρ c (Proc.devRef .tc main_arg7) from by keep_host).trans
    ((W5_of_ne m ρ c main_arg7 (by decide)).trans
    ((W4_of_ne m ρ c main_arg7 (by decide)).trans
    ((show W3 m ρ c (Proc.devRef .tc main_arg7) = W2 m ρ c (Proc.devRef .tc main_arg7) from by keep_host).trans
    ((W2_of_ne m ρ c main_arg7 (by decide)).trans
    ((show W1 m ρ c (Proc.devRef .tc main_arg7) = W0 m ρ c (Proc.devRef .tc main_arg7) from by keep_host)))))))
/-- No stretch or region before boundary 8 writes this argument. -/
theorem keep_arg8_8_0 : W8 m ρ c (Proc.devRef .tc main_arg8) = W0 m ρ c (Proc.devRef .tc main_arg8) :=
  (W8_of_ne m ρ c main_arg8 (by decide)).trans
    ((W7_of_ne m ρ c main_arg8 (by decide)).trans
    ((show W6 m ρ c (Proc.devRef .tc main_arg8) = W5 m ρ c (Proc.devRef .tc main_arg8) from by keep_host).trans
    ((W5_of_ne m ρ c main_arg8 (by decide)).trans
    ((W4_of_ne m ρ c main_arg8 (by decide)).trans
    ((show W3 m ρ c (Proc.devRef .tc main_arg8) = W2 m ρ c (Proc.devRef .tc main_arg8) from by keep_host).trans
    ((W2_of_ne m ρ c main_arg8 (by decide)).trans
    ((show W1 m ρ c (Proc.devRef .tc main_arg8) = W0 m ρ c (Proc.devRef .tc main_arg8) from by keep_host))))))))

/-! ## The arguments, as launched -/

/-! ## What the first host stretch leaves -/

/-- The source row of the edge list. -/
theorem src_at1 : W1 m ρ c (Proc.devRef .tc main_v1) = srcOf (m ((c.tc : Thread nD τ).loc main_arg2)) := by
  show StableHlo.after hostOps0 (W0 m ρ c) (Proc.devRef .tc main_v1) = _
  after_results_simp <;> rfl

/-- The target row of the edge list. -/
theorem dst_at1 : W1 m ρ c (Proc.devRef .tc main_v3) = dstOf (m ((c.tc : Thread nD τ).loc main_arg2)) := by
  show StableHlo.after hostOps0 (W0 m ρ c) (Proc.devRef .tc main_v3) = _
  after_results_simp <;> rfl

/-- The self-weight column dinv². -/
theorem selfCol_at1 : W1 m ρ c (Proc.devRef .tc main_v15) = selfCol (m ((c.tc : Thread nD τ).loc main_arg2)) := by
  show StableHlo.after hostOps0 (W0 m ρ c) (Proc.devRef .tc main_v15) = _
  after_results_simp <;> rfl

/-- The edge-weight column dinv(src)·dinv(dst). -/
theorem edgeCol_at1 : W1 m ρ c (Proc.devRef .tc main_v31) = edgeCol (m ((c.tc : Thread nD τ).loc main_arg2)) := by
  show StableHlo.after hostOps0 (W0 m ρ c) (Proc.devRef .tc main_v31) = _
  after_results_simp <;> rfl

/-- The two feature halves joined. -/
theorem joined_at1 : W1 m ρ c (Proc.devRef .tc main_v32) = joinCols (m ((c.tc : Thread nD τ).loc main_arg0)) (m ((c.tc : Thread nD τ).loc main_arg1)) := by
  show StableHlo.after hostOps0 (W0 m ρ c) (Proc.devRef .tc main_v32) = _
  after_results_simp <;> rfl

/-! ## Layer one -/

/-- Region 0 leaves the product of the joined features with W₁. -/
theorem prod1_at2 : W2 m ρ c (Proc.devRef .tc main_v33) = lin128 (joinCols (m ((c.tc : Thread nD τ).loc main_arg0)) (m ((c.tc : Thread nD τ).loc main_arg1))) (m ((c.tc : Thread nD τ).loc main_arg3)) :=
  (W2_arr m ρ c 2).trans ((Linear0.product (V1 m ρ) c).trans (by
    show lin128 (W1 m ρ c (Proc.devRef .tc main_v32)) (W1 m ρ c (Proc.devRef .tc main_arg3)) = _
    rw [joined_at1, keep_arg3_1_0]))

/-- The second host stretch leaves the aggregate of that product over incoming edges. -/
theorem agg1_at3 : W3 m ρ c (Proc.devRef .tc main_v45) = agg128 (m ((c.tc : Thread nD τ).loc main_arg2)) (lin128 (joinCols (m ((c.tc : Thread nD τ).loc main_arg0)) (m ((c.tc : Thread nD τ).loc main_arg1))) (m ((c.tc : Thread nD τ).loc main_arg3))) := by
  show StableHlo.after hostOps1 (W2 m ρ c) (Proc.devRef .tc main_v45) = _
  after_results_simp
  rw [keep_v1_2_1, keep_v3_2_1, keep_v31_2_1, src_at1, dst_at1, edgeCol_at1, prod1_at2]
  rfl

/-- and the first bias as a row. -/
theorem bias1_at3 : W3 m ρ c (Proc.devRef .tc main_v46) = biasRow (m ((c.tc : Thread nD τ).loc main_arg4)) := by
  show StableHlo.after hostOps1 (W2 m ρ c) (Proc.devRef .tc main_v46) = _
  after_results_simp
  rw [keep_arg4_2_0]
  rfl

/-- Region 1 leaves the first hidden layer. -/
theorem hidden1_at4 : W4 m ρ c (Proc.devRef .tc main_v47) = Cert.Gcn.hidden (m ((c.tc : Thread nD τ).loc main_arg2)) (joinCols (m ((c.tc : Thread nD τ).loc main_arg0)) (m ((c.tc : Thread nD τ).loc main_arg1))) (m ((c.tc : Thread nD τ).loc main_arg3)) (m ((c.tc : Thread nD τ).loc main_arg4)) :=
  (W4_arr m ρ c 4).trans ((Combine1.layer (V3 m ρ) c).trans (by
    show combRelu (W3 m ρ c (Proc.devRef .tc main_v45)) (W3 m ρ c (Proc.devRef .tc main_v33))
      (W3 m ρ c (Proc.devRef .tc main_v15)) (W3 m ρ c (Proc.devRef .tc main_v46)) = _
    rw [agg1_at3, keep_v33_3_2, prod1_at2, keep_v15_3_1, selfCol_at1, bias1_at3]; rfl))

/-! ## Layer two -/

/-- Region 2 leaves the product of the first hidden layer with W₂. -/
theorem prod2_at5 : W5 m ρ c (Proc.devRef .tc main_v48) = lin128 (Cert.Gcn.hidden (m ((c.tc : Thread nD τ).loc main_arg2)) (joinCols (m ((c.tc : Thread nD τ).loc main_arg0)) (m ((c.tc : Thread nD τ).loc main_arg1))) (m ((c.tc : Thread nD τ).loc main_arg3)) (m ((c.tc : Thread nD τ).loc main_arg4))) (m ((c.tc : Thread nD τ).loc main_arg5)) :=
  (W5_arr m ρ c 2).trans ((Linear2.product (V4 m ρ) c).trans (by
    show lin128 (W4 m ρ c (Proc.devRef .tc main_v47)) (W4 m ρ c (Proc.devRef .tc main_arg5)) = _
    rw [hidden1_at4, keep_arg5_4_0]))

/-- The third host stretch leaves its aggregate over incoming edges. -/
theorem agg2_at6 : W6 m ρ c (Proc.devRef .tc main_v60) = agg128 (m ((c.tc : Thread nD τ).loc main_arg2)) (lin128 (Cert.Gcn.hidden (m ((c.tc : Thread nD τ).loc main_arg2)) (joinCols (m ((c.tc : Thread nD τ).loc main_arg0)) (m ((c.tc : Thread nD τ).loc main_arg1))) (m ((c.tc : Thread nD τ).loc main_arg3)) (m ((c.tc : Thread nD τ).loc main_arg4))) (m ((c.tc : Thread nD τ).loc main_arg5))) := by
  show StableHlo.after hostOps3 (W5 m ρ c) (Proc.devRef .tc main_v60) = _
  after_results_simp
  rw [keep_v1_5_1, keep_v3_5_1, keep_v31_5_1, src_at1, dst_at1, edgeCol_at1, prod2_at5]
  rfl

/-- and the second bias as a row. -/
theorem bias2_at6 : W6 m ρ c (Proc.devRef .tc main_v61) = biasRow (m ((c.tc : Thread nD τ).loc main_arg6)) := by
  show StableHlo.after hostOps3 (W5 m ρ c) (Proc.devRef .tc main_v61) = _
  after_results_simp
  rw [keep_arg6_5_0]
  rfl

/-- Region 3 leaves the second hidden layer. -/
theorem hidden2_at7 : W7 m ρ c (Proc.devRef .tc main_v62) = Cert.Gcn.hidden (m ((c.tc : Thread nD τ).loc main_arg2)) (Cert.Gcn.hidden (m ((c.tc : Thread nD τ).loc main_arg2)) (joinCols (m ((c.tc : Thread nD τ).loc main_arg0)) (m ((c.tc : Thread nD τ).loc main_arg1))) (m ((c.tc : Thread nD τ).loc main_arg3)) (m ((c.tc : Thread nD τ).loc main_arg4))) (m ((c.tc : Thread nD τ).loc main_arg5)) (m ((c.tc : Thread nD τ).loc main_arg6)) :=
  (W7_arr m ρ c 4).trans ((Combine3.layer (V6 m ρ) c).trans (by
    show combRelu (W6 m ρ c (Proc.devRef .tc main_v60)) (W6 m ρ c (Proc.devRef .tc main_v48))
      (W6 m ρ c (Proc.devRef .tc main_v15)) (W6 m ρ c (Proc.devRef .tc main_v61)) = _
    rw [agg2_at6, keep_v48_6_5, prod2_at5, keep_v15_6_1, selfCol_at1, bias2_at6]; rfl))

/-! ## Layer three -/

/-- Region 4 leaves the product of the second hidden layer with the weight column W₃. -/
theorem prod3_at8 : W8 m ρ c (Proc.devRef .tc main_v63)
    = lin1 (Cert.Gcn.hidden (m ((c.tc : Thread nD τ).loc main_arg2)) (Cert.Gcn.hidden (m ((c.tc : Thread nD τ).loc main_arg2)) (joinCols (m ((c.tc : Thread nD τ).loc main_arg0)) (m ((c.tc : Thread nD τ).loc main_arg1))) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7)) :=
  (W8_arr m ρ c 2).trans ((Linear4.product (V7 m ρ) c).trans (by
    show lin1 (W7 m ρ c (Proc.devRef .tc main_v62)) (W7 m ρ c (Proc.devRef .tc main_arg7)) = _
    rw [hidden2_at7, keep_arg7_7_0]))

/-- The fourth host stretch leaves its aggregate over incoming edges. -/
theorem agg3_at9 : W9 m ρ c (Proc.devRef .tc main_v74)
    = agg1 (m ((c.tc : Thread nD τ).loc main_arg2)) (lin1 (Cert.Gcn.hidden (m ((c.tc : Thread nD τ).loc main_arg2)) (Cert.Gcn.hidden (m ((c.tc : Thread nD τ).loc main_arg2)) (joinCols (m ((c.tc : Thread nD τ).loc main_arg0)) (m ((c.tc : Thread nD τ).loc main_arg1))) (m ((c.tc : Thread nD τ).loc main_arg3)) (m ((c.tc : Thread nD τ).loc main_arg4))) (m ((c.tc : Thread nD τ).loc main_arg5)) (m ((c.tc : Thread nD τ).loc main_arg6))) (m ((c.tc : Thread nD τ).loc main_arg7))) := by
  show StableHlo.after hostOps5 (W8 m ρ c) (Proc.devRef .tc main_v74) = _
  after_results_simp
  rw [keep_v1_8_1, keep_v3_8_1, keep_v31_8_1, src_at1, dst_at1, edgeCol_at1, prod3_at8]
  rfl

/-- and the last bias as a 1 × 1 array. -/
theorem bias3_at9 : W9 m ρ c (Proc.devRef .tc main_v75) = biasCell (m ((c.tc : Thread nD τ).loc main_arg8)) := by
  show StableHlo.after hostOps5 (W8 m ρ c) (Proc.devRef .tc main_v75) = _
  after_results_simp
  rw [keep_arg8_8_0]
  rfl

/-- **The result buffer at the last boundary is the network function of the nine arguments.** -/
theorem result_at10 : W10 m ρ c (Proc.devRef .tc main_v76) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (W10_arr m ρ c 4).trans ((Combine5.layer (V9 m ρ) c).trans (by
    show combSig (W9 m ρ c (Proc.devRef .tc main_v74)) (W9 m ρ c (Proc.devRef .tc main_v63))
      (W9 m ρ c (Proc.devRef .tc main_v15)) (W9 m ρ c (Proc.devRef .tc main_v75)) = _
    rw [agg3_at9, keep_v63_9_8, prod3_at8, keep_v15_9_1, selfCol_at1, bias3_at9]; rfl))

end Cert.KernelIdeal.Chain

end
-- ==== Proof.LibPlainDot.lean ====
/-
  The host's plain matrix product on the extended reals, read at one entry.

  `dot_general` of an `m × k` by a `k × n` array (rows against columns, no batch axis) holds at entry `(a, b)` the sum
  over the contracted position `c` of `A[a,c] · B[c,b]`, whatever the precision and schedule keys: the very sum the matrix
  unit's product into the zero array holds there. The contraction's one-axis index set is re-indexed by its coordinate
  and the operands' indices are named by their coordinates, exactly as for the matrix unit's product.
-/
import proofs.«125621_j68195490725940_1_alg».proof.Proof.LibPlainMatmul

noncomputable section

open scoped BigOperators

namespace Idealize.ShloMosaic.PlainDot

open Idealize.ShloMosaic Idealize.ShloMosaic.ValueIdx Idealize.ShloMosaic.PlainMatmul

variable {m k n : Nat}

/-- **The host's plain product at an entry**: `∑ c, A[a,c] · B[c,b]`, at the ideal values, whatever the operands'
    formats, the precision key and the schedule key. -/
theorem dotGeneral_apply_entry {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c :=
    funext fun ax => Fin.ext (by
      match ax with
      | ⟨0, _⟩ => exact lhs_row _ _
      | ⟨1, _⟩ => exact (lhs_col _ _).trans hc)
  have er : (DotDims.plain m k n).rhsIdx (ix2 a b) ((contrEquiv1 (DotDims.plain m k n) k rfl rfl).symm c) = ix2 c b :=
    funext fun ax => Fin.ext (by
      match ax with
      | ⟨0, _⟩ => exact (rhs_row _ _).trans hc
      | ⟨1, _⟩ => exact rhs_col _ _)
  rw [el, er]

/-- The matrix unit's product into the zero array and the host's product of the same operands are one array. -/
theorem matmul_zero_eq_dotGeneral {φ₁ φ₂ : FTy} (prec prec' : Option ContractPrecision) (sched : HostSchedule)
    (A : FVec Ideal ⟨2, ![m, k]⟩ φ₁) (B : FVec Ideal ⟨2, ![k, n]⟩ φ₂) :
    FloatOps.matmul (DotDims.plain m k n) prec A B (constant ⟨2, ![m, n]⟩ .f32 0x00000000#32)
      = FloatOps.dotGeneral (DotDims.plain m k n) prec' sched A B := by
  funext i
  obtain ⟨a, b, rfl⟩ : ∃ (a : Fin m) (b : Fin n), i = ix2 a b := ⟨i 0, i 1, eq_ix2 i⟩
  rw [matmul_zero_apply, dotGeneral_apply_entry]

end Idealize.ShloMosaic.PlainDot

end
-- ==== Proof.RefDense.lean ====
/-
  The reference's dense products, entry by entry.

  The host's product of an m × 128 array with a 128 × n one holds at (p, q) the sum over the 128 contracted positions
  k of y(p, k) · w(k, q), whatever the precision key: the specification's product.
-/
import proofs.«125621_j68195490725940_1_alg».proof.Proof.Gen.ReferenceIdeal.Read
import proofs.«125621_j68195490725940_1_alg».proof.Proof.Spec
import proofs.«125621_j68195490725940_1_alg».proof.Proof.LibPlainDot
import Idealize.ShloMosaic.Lib.ValueLayout

set_option maxRecDepth 16384

noncomputable section

namespace Cert.ReferenceIdeal.Net

open Cert.ReferenceIdeal Cert.ReferenceIdeal.Read Cert.Gcn
open Idealize.ShloMosaic Idealize.ShloMosaic.ValueIdx

variable (x0 x1 : (⟨S50000x64, .f32⟩ : BufTy).Contents (Elt Ideal)) (x2 : (⟨S2x800000, .i32⟩ : BufTy).Contents (Elt Ideal)) (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal))

/-- 128 output columns. -/
theorem dot128 (y : FVec Ideal S50000x128 .f32) (w : FVec Ideal S128x128 .f32) :
    Host.dotGeneral dot_S50000x128_S128x128_S50000x128_1_0_0_1_n_n none y w = lin128 y w := by
  funext i
  obtain ⟨p, q, rfl⟩ : ∃ (p : Fin 50000) (q : Fin 128), i = ix2 p q := ⟨i 0, i 1, eq_ix2 i⟩
  exact Idealize.ShloMosaic.PlainDot.dotGeneral_apply_entry none .single y w p q

/-- One output column. -/
theorem dot1 (y : FVec Ideal S50000x128 .f32) (w : FVec Ideal S128x1 .f32) :
    Host.dotGeneral dot_S50000x128_S128x1_S50000x1_1_0_0_1_n_n none y w = lin1 y w := by
  funext i
  obtain ⟨p, q, rfl⟩ : ∃ (p : Fin 50000) (q : Fin 1), i = ix2 p q := ⟨i 0, i 1, eq_ix2 i⟩
  exact Idealize.ShloMosaic.PlainDot.dotGeneral_apply_entry none .single y w p q

/-! ## The aggregate as a function of the features and of the edge-weight column -/

/-- A(h) on 128 channels with the edge-weight column a parameter. -/
def aggWith128 (e : Ids Cert.KernelIdeal.S2x800000) (h : Arr Cert.KernelIdeal.S50000x128) (ec : Arr Cert.KernelIdeal.S800000x1) : Arr Cert.KernelIdeal.S50000x128 :=
  Host.scatterAdd Cert.KernelIdeal.scatter_S50000x128_S800000x1_S800000x128_1_0_0_1
    (broadcastInDim Cert.KernelIdeal.S50000x128 ![] Cert.KernelIdeal.Facts₀.bcast_S_S50000x128 (constant (F := Ideal) Cert.KernelIdeal.S_ .f32 0x00000000#32))
    (rawCol (dstOf e))
    (mulf (Host.gather Cert.KernelIdeal.gather_S50000x128_S800000x1_S800000x128_1_0_n_n_0_1_1128 h (wrapCol (srcOf e)))
      (broadcastInDim Cert.KernelIdeal.S800000x128 ![0, 1] Cert.KernelIdeal.Facts₀.bcast_S800000x1_S800000x128_0_1 ec))

/-- A(h) on one channel with the edge-weight column a parameter. -/
def aggWith1 (e : Ids Cert.KernelIdeal.S2x800000) (h : Arr Cert.KernelIdeal.S50000x1) (ec : Arr Cert.KernelIdeal.S800000x1) : Arr Cert.KernelIdeal.S50000x1 :=
  Host.scatterAdd Cert.KernelIdeal.scatter_S50000x1_S800000x1_S800000x1_1_0_0_1
    (broadcastInDim Cert.KernelIdeal.S50000x1 ![] Cert.KernelIdeal.Facts₀.bcast_S_S50000x1 (constant (F := Ideal) Cert.KernelIdeal.S_ .f32 0x00000000#32))
    (rawCol (dstOf e))
    (mulf (Host.gather Cert.KernelIdeal.gather_S50000x1_S800000x1_S800000x1_1_0_n_n_0_1_11 h (wrapCol (srcOf e))) ec)

theorem agg128_eq (e : Ids Cert.KernelIdeal.S2x800000) (h : Arr Cert.KernelIdeal.S50000x128) : agg128 e h = aggWith128 e h (edgeCol e) := rfl

theorem agg1_eq (e : Ids Cert.KernelIdeal.S2x800000) (h : Arr Cert.KernelIdeal.S50000x1) : agg1 e h = aggWith1 e h (edgeCol e) := rfl

/-! ## The specification's dense pieces read at an entry -/

theorem combRelu_apply (a h : Arr Cert.KernelIdeal.S50000x128) (s : Arr Cert.KernelIdeal.S50000x1) (b : Arr Cert.KernelIdeal.S1x128) (p : Fin 50000) (q : Fin 128) :
    combRelu a h s b (ix2 p q)
      = max (a (ix2 p q) + h (ix2 p q) * s (ix2 p (0 : Fin 1)) + b (ix2 (0 : Fin 1) q)) (Ideal.ofBits .f32 0x00000000#32) := rfl

theorem hidden_apply (e : Ids Cert.KernelIdeal.S2x800000) (x : Arr Cert.KernelIdeal.S50000x128) (w : Arr Cert.KernelIdeal.S128x128) (b : Arr Cert.KernelIdeal.S128)
    (p : Fin 50000) (q : Fin 128) :
    Cert.Gcn.hidden e x w b (ix2 p q)
      = max (agg128 e (lin128 x w) (ix2 p q) + lin128 x w (ix2 p q) * selfCol e (ix2 p (0 : Fin 1)) + biasRow b (ix2 (0 : Fin 1) q))
          (Ideal.ofBits .f32 0x00000000#32) :=
  combRelu_apply _ _ _ _ p q

theorem combSig_apply (a h s : Arr Cert.KernelIdeal.S50000x1) (b : Arr Cert.KernelIdeal.S1x1) (p : Fin 50000) :
    combSig a h s b (ix2 p (0 : Fin 1))
      = Ideal.logistic (a (ix2 p (0 : Fin 1)) + h (ix2 p (0 : Fin 1)) * s (ix2 p (0 : Fin 1)) + b (ix2 (0 : Fin 1) (0 : Fin 1))) := rfl

theorem output_apply (e : Ids Cert.KernelIdeal.S2x800000) (x : Arr Cert.KernelIdeal.S50000x128) (w : Arr Cert.KernelIdeal.S128x1) (b : Arr Cert.KernelIdeal.S1) (p : Fin 50000) :
    Cert.Gcn.output e x w b (ix2 p (0 : Fin 1))
      = Ideal.logistic (agg1 e (lin1 x w) (ix2 p (0 : Fin 1)) + lin1 x w (ix2 p (0 : Fin 1)) * selfCol e (ix2 p (0 : Fin 1))
          + biasCell b (ix2 (0 : Fin 1) (0 : Fin 1))) :=
  combSig_apply _ _ _ _ p

/-- The logistic function is 1 / (1 + e^(−x)) on every extended real. -/
theorem logistic_eq (x : EReal) : Ideal.logistic x = Ideal.div 1 (1 + Ideal.exp (-x)) := rfl

theorem net_eq (xi xj : Arr Cert.KernelIdeal.S50000x64) (e : Ids Cert.KernelIdeal.S2x800000) (w1 : Arr Cert.KernelIdeal.S128x128) (b1 : Arr Cert.KernelIdeal.S128)
    (w2 : Arr Cert.KernelIdeal.S128x128) (b2 : Arr Cert.KernelIdeal.S128) (w3 : Arr Cert.KernelIdeal.S128x1) (b3 : Arr Cert.KernelIdeal.S1) :
    net xi xj e w1 b1 w2 b2 w3 b3
      = Cert.Gcn.output e (Cert.Gcn.hidden e (Cert.Gcn.hidden e (joinCols xi xj) w1 b1) w2 b2) w3 b3 := rfl

end Cert.ReferenceIdeal.Net

end
-- ==== Proof.LibBroadcastLayout.lean ====
/-
  `broadcast_in_dim` of small shapes, read at an entry.

  A vector laid as a column [a] → [a,1] or as a row [a] → [1,a], a column [a,1] or a row [1,b] repeated to [a,b], and a
  scalar repeated to any shape: each result entry is the operand's entry at the matching coordinates, the unit axes
  read at 0.  The column layout of a vector is therefore the same array as its reshape to [a,1], and the row layout the
  same as its reshape to [1,a].
-/
import Idealize.ShloMosaic.Lib.ValueIdx
import Idealize.ShloMosaic.Lib.ValueLayout
import Idealize.ShloMosaic.Lib.Pipeline.Value

noncomputable section

namespace Idealize.ShloMosaic.BroadcastLayout

open Idealize.ShloMosaic Idealize.ShloMosaic.ValueIdx

variable {α : Type}

/-- A scalar repeated to any shape reads the scalar at every index. -/
theorem scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun ax => ax.elim0)

/-- A vector laid as a column: [a] → [a,1] along axis 0 reads, at (p, u), the operand at p. -/
theorem column_apply {a : ℕ} (dims : Fin (⟨1, ![a]⟩ : Shape).rank → Fin (⟨2, ![a, 1]⟩ : Shape).rank)
    (hd : dims ⟨0, Nat.one_pos⟩ = ⟨0, Nat.two_pos⟩)
    (h : (⟨1, ![a]⟩ : Shape).BroadcastsInDim ⟨2, ![a, 1]⟩ dims) (x : (⟨1, ![a]⟩ : Shape).Idx → α) (p : Fin a) (u : Fin 1) :
    broadcastInDim ⟨2, ![a, 1]⟩ dims h x (ix2 p u) = x (ix1 p) :=
  broadcastInDim_apply dims h x (ix2 p u) (ix1 p) (fun ax => by
    match ax with
    | ⟨0, _⟩ =>
      rw [hd]
      show p.val = if a = 1 then 0 else p.val
      split
      · have := p.isLt; omega
      · rfl)

/-- A vector laid as a row: [a] → [1,a] along axis 1 reads, at (u, i), the operand at i. -/
theorem row_apply {a : ℕ} (dims : Fin (⟨1, ![a]⟩ : Shape).rank → Fin (⟨2, ![1, a]⟩ : Shape).rank)
    (hd : dims ⟨0, Nat.one_pos⟩ = ⟨1, Nat.one_lt_two⟩)
    (h : (⟨1, ![a]⟩ : Shape).BroadcastsInDim ⟨2, ![1, a]⟩ dims) (x : (⟨1, ![a]⟩ : Shape).Idx → α) (u : Fin 1) (i : Fin a) :
    broadcastInDim ⟨2, ![1, a]⟩ dims h x (ix2 u i) = x (ix1 i) :=
  broadcastInDim_apply dims h x (ix2 u i) (ix1 i) (fun ax => by
    match ax with
    | ⟨0, _⟩ =>
      rw [hd]
      show i.val = if a = 1 then 0 else i.val
      split
      · have := i.isLt; omega
      · rfl)

/-- A column repeated along the second axis: [a,1] → [a,b] reads, at (p, c), the operand at (p, 0). -/
theorem column_repeat_apply {a b : ℕ} (dims : Fin (⟨2, ![a, 1]⟩ : Shape).rank → Fin (⟨2, ![a, b]⟩ : Shape).rank)
    (hd0 : dims ⟨0, Nat.two_pos⟩ = ⟨0, Nat.two_pos⟩)
    (h : (⟨2, ![a, 1]⟩ : Shape).BroadcastsInDim ⟨2, ![a, b]⟩ dims) (v : (⟨2, ![a, 1]⟩ : Shape).Idx → α) (p : Fin a) (c : Fin b) :
    broadcastInDim ⟨2, ![a, b]⟩ dims h v (ix2 p c) = v (ix2 p (0 : Fin 1)) :=
  broadcastInDim_apply dims h v (ix2 p c) (ix2 p (0 : Fin 1)) (fun ax => by
    match ax with
    | ⟨0, _⟩ =>
      rw [hd0]
      show p.val = if a = 1 then 0 else p.val
      split
      · have := p.isLt; omega
      · rfl
    | ⟨1, _⟩ =>
      show 0 = if (1 : ℕ) = 1 then 0 else _
      rw [if_pos rfl])

/-- A row repeated along the first axis: [1,b] → [a,b] reads, at (p, c), the operand at (0, c). -/
theorem row_repeat_apply {a b : ℕ} (dims : Fin (⟨2, ![1, b]⟩ : Shape).rank → Fin (⟨2, ![a, b]⟩ : Shape).rank)
    (hd1 : dims ⟨1, Nat.one_lt_two⟩ = ⟨1, Nat.one_lt_two⟩)
    (h : (⟨2, ![1, b]⟩ : Shape).BroadcastsInDim ⟨2, ![a, b]⟩ dims) (v : (⟨2, ![1, b]⟩ : Shape).Idx → α) (p : Fin a) (c : Fin b) :
    broadcastInDim ⟨2, ![a, b]⟩ dims h v (ix2 p c) = v (ix2 (0 : Fin 1) c) :=
  broadcastInDim_apply dims h v (ix2 p c) (ix2 (0 : Fin 1) c) (fun ax => by
    match ax with
    | ⟨0, _⟩ =>
      show 0 = if (1 : ℕ) = 1 then 0 else _
      rw [if_pos rfl]
    | ⟨1, _⟩ =>
      rw [hd1]
      show c.val = if b = 1 then 0 else c.val
      split
      · have := c.isLt; omega
      · rfl)

/-- The column layout of a vector is its reshape to [a,1]. -/
theorem column_eq_shapeCast {a : ℕ} (dims : Fin (⟨1, ![a]⟩ : Shape).rank → Fin (⟨2, ![a, 1]⟩ : Shape).rank)
    (hd : dims ⟨0, Nat.one_pos⟩ = ⟨0, Nat.two_pos⟩)
    (h : (⟨1, ![a]⟩ : Shape).BroadcastsInDim ⟨2, ![a, 1]⟩ dims) (h' : (⟨1, ![a]⟩ : Shape).ShapeCasts ⟨2, ![a, 1]⟩)
    (x : (⟨1, ![a]⟩ : Shape).Idx → α) :
    broadcastInDim ⟨2, ![a, 1]⟩ dims h x = shapeCast ⟨2, ![a, 1]⟩ x h' := by
  funext j
  obtain ⟨p, u, rfl⟩ : ∃ (p : Fin a) (u : Fin 1), j = ix2 p u := ⟨j 0, j 1, eq_ix2 j⟩
  rw [column_apply dims hd h x p u]
  refine (shapeCast_apply x h' (ix2 p u) (ix1 p) ?_).symm
  have hu : u.val = 0 := by omega
  rw [Shape.rowMajor_val_two, Shape.rowMajor_val_one]
  show p.val = p.val * 1 + u.val
  omega

/-- The row layout of a vector is its reshape to [1,a]. -/
theorem row_eq_shapeCast {a : ℕ} (dims : Fin (⟨1, ![a]⟩ : Shape).rank → Fin (⟨2, ![1, a]⟩ : Shape).rank)
    (hd : dims ⟨0, Nat.one_pos⟩ = ⟨1, Nat.one_lt_two⟩)
    (h : (⟨1, ![a]⟩ : Shape).BroadcastsInDim ⟨2, ![1, a]⟩ dims) (h' : (⟨1, ![a]⟩ : Shape).ShapeCasts ⟨2, ![1, a]⟩)
    (x : (⟨1, ![a]⟩ : Shape).Idx → α) :
    broadcastInDim ⟨2, ![1, a]⟩ dims h x = shapeCast ⟨2, ![1, a]⟩ x h' := by
  funext j
  obtain ⟨u, i, rfl⟩ : ∃ (u : Fin 1) (i : Fin a), j = ix2 u i := ⟨j 0, j 1, eq_ix2 j⟩
  rw [row_apply dims hd h x u i, shapeCast_a_1a_apply]

end Idealize.ShloMosaic.BroadcastLayout

end
-- ==== Proof.RefLayer1.lean ====
/-
  The reference's layer 1, stage by stage, is the specification's hidden layer.

  It recomputes the degree normalisation and the index wraps from the edge list (the same operations of the same
  argument as the specification's), lays the edge weights and the self weights as columns by a broadcast where the
  specification reshapes them, and the bias as a row likewise; its rectifier is the maximum with the zero word.
-/
import proofs.«125621_j68195490725940_1_alg».proof.Proof.Gen.ReferenceIdeal.Read
import proofs.«125621_j68195490725940_1_alg».proof.Proof.Spec
import proofs.«125621_j68195490725940_1_alg».proof.Proof.RefDense
import proofs.«125621_j68195490725940_1_alg».proof.Proof.LibColumnLayout
import proofs.«125621_j68195490725940_1_alg».proof.Proof.LibBroadcastLayout
import Idealize.ShloMosaic.Lib.ValueLayout

set_option maxRecDepth 16384

noncomputable section

namespace Cert.ReferenceIdeal.Net

open Cert.ReferenceIdeal Cert.ReferenceIdeal.Read Cert.Gcn
open Idealize.ShloMosaic Idealize.ShloMosaic.ValueIdx

variable (x0 x1 : (⟨S50000x64, .f32⟩ : BufTy).Contents (Elt Ideal)) (x2 : (⟨S2x800000, .i32⟩ : BufTy).Contents (Elt Ideal)) (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal))

/-! ## Layer 1 -/

/-- The product with the layer's weights, entry by entry. -/
theorem prod1 : val_main_v5 (F := Ideal) x0 x1 x3 = lin128 (joinCols x0 x1) x3 :=
  dot128 (val_main_v4 (F := Ideal) x0 x1) x3

/-- The edge weights laid as a column are their reshape. -/
theorem edgeCol1 : val_main_v38 (F := Ideal) x2 = edgeCol x2 :=
  Idealize.ShloMosaic.BroadcastLayout.column_eq_shapeCast (a := 800000) ![0] rfl Facts₀.bcast_S800000_S800000x1_0 Cert.KernelIdeal.Facts₀.shapeCasts_S800000_S800000x1 (edgeWeight x2)

/-- The stage that scatters is the aggregate of the product stage with the column stage. -/
theorem aggStage1 : val_main_v43 (F := Ideal) x0 x1 x2 x3 = aggWith128 x2 (val_main_v5 (F := Ideal) x0 x1 x3) (val_main_v38 (F := Ideal) x2) := rfl

/-- The aggregate over incoming edges of that product. -/
theorem agg1 : val_main_v43 (F := Ideal) x0 x1 x2 x3 = agg128 x2 (lin128 (joinCols x0 x1) x3) :=
  (aggStage1 x0 x1 x2 x3).trans
    ((congrArg₂ (aggWith128 x2) (prod1 x0 x1 x3) (edgeCol1 x2)).trans (agg128_eq x2 _).symm)

/-- The self weights, laid as a column and repeated along the channels, read at (p, q): the column at (p, 0). -/
theorem selfRep1 (p : Fin 50000) (q : Fin 128) : (val_main_v46 (F := Ideal) x2) (ix2 p q) = selfCol x2 (ix2 p (0 : Fin 1)) :=
  (Idealize.ShloMosaic.BroadcastLayout.column_repeat_apply (a := 50000) (b := 128) ![0, 1] rfl Facts₀.bcast_S50000x1_S50000x128_0_1 (val_main_v45 (F := Ideal) x2) p q).trans
    ((Idealize.ShloMosaic.BroadcastLayout.column_apply (a := 50000) ![0] rfl Facts₀.bcast_S50000_S50000x1_0 (selfWeight x2) p 0).trans
      (Idealize.ShloMosaic.ColumnLayout.shapeCast_a_a1_apply (selfWeight x2) Cert.KernelIdeal.Facts₀.shapeCasts_S50000_S50000x1 p 0).symm)

/-- The bias, laid as a row and repeated down the nodes, read at (p, q): the row at (0, q). -/
theorem biasRep1 (p : Fin 50000) (q : Fin 128) : (val_main_v50 (F := Ideal) x4) (ix2 p q) = biasRow x4 (ix2 (0 : Fin 1) q) :=
  (Idealize.ShloMosaic.BroadcastLayout.row_repeat_apply (a := 50000) (b := 128) ![0, 1] rfl Facts₀.bcast_S1x128_S50000x128_0_1 (val_main_v49 (F := Ideal) x4) p q).trans
    ((Idealize.ShloMosaic.BroadcastLayout.row_apply (a := 128) ![1] rfl Facts₀.bcast_S128_S1x128_1 x4 0 q).trans
      (shapeCast_a_1a_apply x4 Cert.KernelIdeal.Facts₀.shapeCasts_S128_S1x128 0 q).symm)

/-- The zero the rectifier compares with. -/
theorem zero1 (p : Fin 50000) (q : Fin 128) : (val_main_call0_v0 (F := Ideal)) (ix2 p q) = Ideal.ofBits .f32 0x00000000#32 :=
  Idealize.ShloMosaic.BroadcastLayout.scalar_apply (t := S50000x128) ![] Facts₀.bcast_S_S50000x128 (val_main_call0_cst (F := Ideal)) (ix2 p q)

/-- **The reference's layer 1 is the specification's hidden layer.** -/
theorem hidden1 : val_main_v52 (F := Ideal) x0 x1 x2 x3 x4 = Cert.Gcn.hidden x2 (joinCols x0 x1) x3 x4 := by
  funext i
  obtain ⟨p, q, rfl⟩ : ∃ (p : Fin 50000) (q : Fin 128), i = ix2 p q := ⟨i 0, i 1, eq_ix2 i⟩
  rw [val_main_v52_apply, val_main_v51_apply, val_main_v48_apply, val_main_v47_apply]
  simp only [Ideal.maximumf_def, Ideal.addf_def, Ideal.mulf_def]
  rw [agg1, prod1, selfRep1, biasRep1, zero1, hidden_apply]

end Cert.ReferenceIdeal.Net

end
-- ==== Proof.RefLayer2.lean ====
/-
  The reference's layer 2, stage by stage, is the specification's hidden layer.

  It recomputes the degree normalisation and the index wraps from the edge list (the same operations of the same
  argument as the specification's), lays the edge weights and the self weights as columns by a broadcast where the
  specification reshapes them, and the bias as a row likewise; its rectifier is the maximum with the zero word.
-/
import proofs.«125621_j68195490725940_1_alg».proof.Proof.Gen.ReferenceIdeal.Read
import proofs.«125621_j68195490725940_1_alg».proof.Proof.Spec
import proofs.«125621_j68195490725940_1_alg».proof.Proof.RefDense
import proofs.«125621_j68195490725940_1_alg».proof.Proof.RefLayer1
import proofs.«125621_j68195490725940_1_alg».proof.Proof.LibColumnLayout
import proofs.«125621_j68195490725940_1_alg».proof.Proof.LibBroadcastLayout
import Idealize.ShloMosaic.Lib.ValueLayout

set_option maxRecDepth 16384

noncomputable section

namespace Cert.ReferenceIdeal.Net

open Cert.ReferenceIdeal Cert.ReferenceIdeal.Read Cert.Gcn
open Idealize.ShloMosaic Idealize.ShloMosaic.ValueIdx

variable (x0 x1 : (⟨S50000x64, .f32⟩ : BufTy).Contents (Elt Ideal)) (x2 : (⟨S2x800000, .i32⟩ : BufTy).Contents (Elt Ideal)) (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal))

/-! ## Layer 2 -/

/-- The product with the layer's weights, entry by entry. -/
theorem prod2 : val_main_v53 (F := Ideal) x0 x1 x2 x3 x4 x5 = lin128 (Cert.Gcn.hidden x2 (joinCols x0 x1) x3 x4) x5 :=
  (congrArg (fun (y : FVec Ideal S50000x128 .f32) => Host.dotGeneral dot_S50000x128_S128x128_S50000x128_1_0_0_1_n_n none y (x5 : FVec Ideal S128x128 .f32)) (hidden1 x0 x1 x2 x3 x4)).trans
    (dot128 (Cert.Gcn.hidden x2 (joinCols x0 x1) x3 x4) x5)

/-- The edge weights laid as a column are their reshape. -/
theorem edgeCol2 : val_main_v86 (F := Ideal) x2 = edgeCol x2 :=
  Idealize.ShloMosaic.BroadcastLayout.column_eq_shapeCast (a := 800000) ![0] rfl Facts₀.bcast_S800000_S800000x1_0 Cert.KernelIdeal.Facts₀.shapeCasts_S800000_S800000x1 (edgeWeight x2)

/-- The stage that scatters is the aggregate of the product stage with the column stage. -/
theorem aggStage2 : val_main_v91 (F := Ideal) x0 x1 x2 x3 x4 x5 = aggWith128 x2 (val_main_v53 (F := Ideal) x0 x1 x2 x3 x4 x5) (val_main_v86 (F := Ideal) x2) := rfl

/-- The aggregate over incoming edges of that product. -/
theorem agg2 : val_main_v91 (F := Ideal) x0 x1 x2 x3 x4 x5 = agg128 x2 (lin128 (Cert.Gcn.hidden x2 (joinCols x0 x1) x3 x4) x5) :=
  (aggStage2 x0 x1 x2 x3 x4 x5).trans
    ((congrArg₂ (aggWith128 x2) (prod2 x0 x1 x2 x3 x4 x5) (edgeCol2 x2)).trans (agg128_eq x2 _).symm)

/-- The self weights, laid as a column and repeated along the channels, read at (p, q): the column at (p, 0). -/
theorem selfRep2 (p : Fin 50000) (q : Fin 128) : (val_main_v94 (F := Ideal) x2) (ix2 p q) = selfCol x2 (ix2 p (0 : Fin 1)) :=
  (Idealize.ShloMosaic.BroadcastLayout.column_repeat_apply (a := 50000) (b := 128) ![0, 1] rfl Facts₀.bcast_S50000x1_S50000x128_0_1 (val_main_v93 (F := Ideal) x2) p q).trans
    ((Idealize.ShloMosaic.BroadcastLayout.column_apply (a := 50000) ![0] rfl Facts₀.bcast_S50000_S50000x1_0 (selfWeight x2) p 0).trans
      (Idealize.ShloMosaic.ColumnLayout.shapeCast_a_a1_apply (selfWeight x2) Cert.KernelIdeal.Facts₀.shapeCasts_S50000_S50000x1 p 0).symm)

/-- The bias, laid as a row and repeated down the nodes, read at (p, q): the row at (0, q). -/
theorem biasRep2 (p : Fin 50000) (q : Fin 128) : (val_main_v98 (F := Ideal) x6) (ix2 p q) = biasRow x6 (ix2 (0 : Fin 1) q) :=
  (Idealize.ShloMosaic.BroadcastLayout.row_repeat_apply (a := 50000) (b := 128) ![0, 1] rfl Facts₀.bcast_S1x128_S50000x128_0_1 (val_main_v97 (F := Ideal) x6) p q).trans
    ((Idealize.ShloMosaic.BroadcastLayout.row_apply (a := 128) ![1] rfl Facts₀.bcast_S128_S1x128_1 x6 0 q).trans
      (shapeCast_a_1a_apply x6 Cert.KernelIdeal.Facts₀.shapeCasts_S128_S1x128 0 q).symm)

/-- The zero the rectifier compares with. -/
theorem zero2 (p : Fin 50000) (q : Fin 128) : (val_main_call1_v0 (F := Ideal)) (ix2 p q) = Ideal.ofBits .f32 0x00000000#32 :=
  Idealize.ShloMosaic.BroadcastLayout.scalar_apply (t := S50000x128) ![] Facts₀.bcast_S_S50000x128 (val_main_call1_cst (F := Ideal)) (ix2 p q)

/-- **The reference's layer 2 is the specification's hidden layer.** -/
theorem hidden2 : val_main_v100 (F := Ideal) x0 x1 x2 x3 x4 x5 x6 = Cert.Gcn.hidden x2 (Cert.Gcn.hidden x2 (joinCols x0 x1) x3 x4) x5 x6 := by
  funext i
  obtain ⟨p, q, rfl⟩ : ∃ (p : Fin 50000) (q : Fin 128), i = ix2 p q := ⟨i 0, i 1, eq_ix2 i⟩
  rw [val_main_v100_apply, val_main_v99_apply, val_main_v96_apply, val_main_v95_apply]
  simp only [Ideal.maximumf_def, Ideal.addf_def, Ideal.mulf_def]
  rw [agg2, prod2, selfRep2, biasRep2, zero2, hidden_apply]

end Cert.ReferenceIdeal.Net

end
-- ==== Proof.LibFloatWords.lean ====
import Idealize.ShloMosaic.PureOps.Ideal

/-! # Float bit patterns as the extended reals they denote

A 32-bit pattern is read as an IEEE single: sign, eight exponent bits, twenty-three fraction bits. The pattern
`0x3F800000` has sign 0, biased exponent 127 and fraction 0, so it denotes `2 ^ 0 · 1 = 1`. The pattern is
unfolded once here so that its users cite the equation and never open the decoding themselves. -/

noncomputable section

namespace Cert.Lib.FloatWords

open Idealize.ShloMosaic

/-- The single-precision pattern of `1.0` denotes the extended real `1`. -/
theorem ofBits_one_f32 : Ideal.ofBits .f32 0x3F800000#32 = (1 : EReal) := by
  simp [Ideal.ofBits, Ideal.ieee, -EReal.coe_mul]
  norm_num

end Cert.Lib.FloatWords

end
-- ==== Proof.RefLayer3.lean ====
/-
  The reference's last layer, stage by stage, is the specification's output layer, so its result is the network
  function.

  One output channel: the product with the weight column, the aggregate over incoming edges, the self weights laid as
  a column by a broadcast (the specification reshapes), the 1 × 1 bias repeated down the nodes.  It closes with
  1 / (1 + e^(−x)) spelt in host operations, both ones the unit word: the logistic function on every extended real,
  its values at the two infinities included.
-/
import proofs.«125621_j68195490725940_1_alg».proof.Proof.Gen.ReferenceIdeal.Read
import proofs.«125621_j68195490725940_1_alg».proof.Proof.Spec
import proofs.«125621_j68195490725940_1_alg».proof.Proof.RefDense
import proofs.«125621_j68195490725940_1_alg».proof.Proof.RefLayer1
import proofs.«125621_j68195490725940_1_alg».proof.Proof.RefLayer2
import proofs.«125621_j68195490725940_1_alg».proof.Proof.LibColumnLayout
import proofs.«125621_j68195490725940_1_alg».proof.Proof.LibBroadcastLayout
import proofs.«125621_j68195490725940_1_alg».proof.Proof.LibFloatWords
import Idealize.ShloMosaic.Lib.ValueLayout

set_option maxRecDepth 16384

noncomputable section

namespace Cert.ReferenceIdeal.Net

open Cert.ReferenceIdeal Cert.ReferenceIdeal.Read Cert.Gcn
open Idealize.ShloMosaic Idealize.ShloMosaic.ValueIdx

variable (x0 x1 : (⟨S50000x64, .f32⟩ : BufTy).Contents (Elt Ideal)) (x2 : (⟨S2x800000, .i32⟩ : BufTy).Contents (Elt Ideal)) (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal)) (x7 : (⟨S128x1, .f32⟩ : BufTy).Contents (Elt Ideal)) (x8 : (⟨S1, .f32⟩ : BufTy).Contents (Elt Ideal))

/-- The product with the weight column, entry by entry. -/
theorem prod3 : val_main_v101 (F := Ideal) x0 x1 x2 x3 x4 x5 x6 x7 = lin1 (Cert.Gcn.hidden x2 (Cert.Gcn.hidden x2 (joinCols x0 x1) x3 x4) x5 x6) x7 :=
  (congrArg (fun (y : FVec Ideal S50000x128 .f32) => Host.dotGeneral dot_S50000x128_S128x1_S50000x1_1_0_0_1_n_n none y (x7 : FVec Ideal S128x1 .f32))
    (hidden2 x0 x1 x2 x3 x4 x5 x6)).trans (dot1 (Cert.Gcn.hidden x2 (Cert.Gcn.hidden x2 (joinCols x0 x1) x3 x4) x5 x6) x7)

/-- The edge weights laid as a column are their reshape. -/
theorem edgeCol3 : val_main_v134 (F := Ideal) x2 = edgeCol x2 :=
  Idealize.ShloMosaic.BroadcastLayout.column_eq_shapeCast (a := 800000) ![0] rfl Facts₀.bcast_S800000_S800000x1_0 Cert.KernelIdeal.Facts₀.shapeCasts_S800000_S800000x1 (edgeWeight x2)

/-- The stage that scatters is the aggregate of the product stage with the column stage. -/
theorem aggStage3 : val_main_v138 (F := Ideal) x0 x1 x2 x3 x4 x5 x6 x7 = aggWith1 x2 (val_main_v101 (F := Ideal) x0 x1 x2 x3 x4 x5 x6 x7) (val_main_v134 (F := Ideal) x2) := rfl

/-- The aggregate over incoming edges of that product. -/
theorem agg3 : val_main_v138 (F := Ideal) x0 x1 x2 x3 x4 x5 x6 x7 = Cert.Gcn.agg1 x2 (lin1 (Cert.Gcn.hidden x2 (Cert.Gcn.hidden x2 (joinCols x0 x1) x3 x4) x5 x6) x7) :=
  (aggStage3 x0 x1 x2 x3 x4 x5 x6 x7).trans
    ((congrArg₂ (aggWith1 x2) (prod3 x0 x1 x2 x3 x4 x5 x6 x7) (edgeCol3 x2)).trans (agg1_eq x2 _).symm)

/-- The self weights laid as a column are their reshape. -/
theorem selfCol3 : val_main_v140 (F := Ideal) x2 = selfCol x2 :=
  Idealize.ShloMosaic.BroadcastLayout.column_eq_shapeCast (a := 50000) ![0] rfl Facts₀.bcast_S50000_S50000x1_0 Cert.KernelIdeal.Facts₀.shapeCasts_S50000_S50000x1 (selfWeight x2)

/-- The one-channel bias repeated down the nodes reads the bias cell. -/
theorem biasRep3 (p : Fin 50000) : (val_main_v144 (F := Ideal) x8) (ix2 p (0 : Fin 1)) = biasCell x8 (ix2 (0 : Fin 1) (0 : Fin 1)) :=
  (Idealize.ShloMosaic.BroadcastLayout.row_repeat_apply (a := 50000) (b := 1) ![0, 1] rfl Facts₀.bcast_S1x1_S50000x1_0_1 (val_main_v143 (F := Ideal) x8) p 0).trans
    ((Idealize.ShloMosaic.BroadcastLayout.row_apply (a := 1) ![1] rfl Facts₀.bcast_S1_S1x1_1 x8 0 0).trans
      (shapeCast_a_1a_apply x8 Cert.KernelIdeal.Facts₀.shapeCasts_S1_S1x1 0 0).symm)

/-- The numerator's one. -/
theorem one_num (p : Fin 50000) : (val_main_v150 (F := Ideal)) (ix2 p (0 : Fin 1)) = (1 : EReal) :=
  (Idealize.ShloMosaic.BroadcastLayout.scalar_apply (t := S50000x1) ![] Facts₀.bcast_S_S50000x1 (val_main_cst_32 (F := Ideal)) (ix2 p (0 : Fin 1))).trans
    Cert.Lib.FloatWords.ofBits_one_f32

/-- The denominator's one. -/
theorem one_den (p : Fin 50000) : (val_main_v148 (F := Ideal)) (ix2 p (0 : Fin 1)) = (1 : EReal) :=
  (Idealize.ShloMosaic.BroadcastLayout.scalar_apply (t := S50000x1) ![] Facts₀.bcast_S_S50000x1 (val_main_cst_31 (F := Ideal)) (ix2 p (0 : Fin 1))).trans
    Cert.Lib.FloatWords.ofBits_one_f32

/-- **The reference's result is the network function of its nine arguments.** -/
theorem result : val_main_v151 (F := Ideal) x0 x1 x2 x3 x4 x5 x6 x7 x8 = net x0 x1 x2 x3 x4 x5 x6 x7 x8 := by
  funext i
  obtain ⟨p, q, rfl⟩ : ∃ (p : Fin 50000) (q : Fin 1), i = ix2 p q := ⟨i 0, i 1, eq_ix2 i⟩
  obtain rfl : q = 0 := Subsingleton.elim _ _
  rw [val_main_v151_apply, val_main_v149_apply, val_main_v147_apply, val_main_v146_apply, val_main_v145_apply,
    val_main_v142_apply, val_main_v141_apply]
  simp only [Ideal.hostDivf_def, Ideal.addf_def, Ideal.hostUnary_exp_def, Ideal.hostNegf_def, Ideal.negf_def, Ideal.mulf_def]
  rw [one_num, one_den, agg3, prod3, selfCol3, biasRep3, net_eq, output_apply, logistic_eq]

end Cert.ReferenceIdeal.Net

end
-- ==== Proof.lean ====
/-
  A three-layer graph-convolution link predictor on 50000 nodes and 800000 edges: the tiled kernel against its plain
  reference, on the extended reals.

  Both programs compute, from the two feature halves, the edge list and three weight/bias pairs,
      σ( L₃( relu L₂( relu L₁( [x_i | x_j] ) ) ) ),     L(x) = A(xW) + xW ⊙ dinv² + b,
  where deg(n) = 1 + #{edges into n}, dinv = deg^(-1/2), and A(h)(n) = Σ_{edges k into n} h(src k) · dinv(src k) · dinv(dst k).
  The kernel computes dinv once, does each dense product xW and each combine-and-activate step in ten row tiles of
  5000 nodes, and leaves the gather and scatter-add of A to host operations; the reference recomputes dinv in every
  layer and does everything with host operations.  The two agree entry by entry with no condition on the inputs beyond
  the frames' own: every step is the same operation of the same arrays, or a change of layout (a column made by a
  reshape against one made by a broadcast; tiles against the whole array), or the logistic function spelt out.

  The pieces: the network as whole-array functions (Spec); the kernel's run with its result kept (RunResult); each
  region's output as a whole-array function of what it found (Linear0/2/4, Combine1/3/5); the kernel's boundary-by-
  boundary composition (Chain); the reference stage by stage (RefDense, RefLayer1/2/3).
-/
import proofs.«125621_j68195490725940_1_alg».proof.Defs
import proofs.«125621_j68195490725940_1_alg».proof.Proof.Gen.Kernel
import proofs.«125621_j68195490725940_1_alg».proof.Proof.Gen.Kernel.Frame
import proofs.«125621_j68195490725940_1_alg».proof.Proof.Gen.KernelIdeal
import proofs.«125621_j68195490725940_1_alg».proof.Proof.Gen.KernelIdeal.Frame
import proofs.«125621_j68195490725940_1_alg».proof.Proof.Gen.ReferenceIdeal
import proofs.«125621_j68195490725940_1_alg».proof.Proof.Gen.Pre_finite_inputs
import proofs.«125621_j68195490725940_1_alg».proof.Proof.Gen.ReferenceIdeal.Run
import proofs.«125621_j68195490725940_1_alg».proof.Proof.Gen.ReferenceIdeal.Read
import proofs.«125621_j68195490725940_1_alg».proof.Proof.RunResult
import proofs.«125621_j68195490725940_1_alg».proof.Proof.Chain
import proofs.«125621_j68195490725940_1_alg».proof.Proof.RefLayer3
import Idealize.ShloMosaic.Adequacy
import Idealize.ShloMosaic.Init

set_option maxRecDepth 16384

noncomputable section

namespace Cert.Proof

open Idealize.ShloMosaic Idealize.SL.Sem Cert.Gcn

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- And the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel's run ends with the network function of its arguments in the result buffer. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v76) = net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run Cert.KernelIdeal.defs _ _).mono (fun r h c => ⟨(h c).1.trans (Cert.KernelIdeal.Chain.result_at10 m ρ c), (h c).2⟩)
    (Cert.KernelIdeal.RunResult.run_result m ρ)

/-- From memories that agree on the arguments both programs end with the network function of those arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v151_eq, a0, a1, a2, a3, a4, a5, a6, a7, a8]
  exact Cert.ReferenceIdeal.Net.result _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
